-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg10 : FVec F S128x10 .f32) (main_arg11 : FVec F S10 .f32) (main_v33 : IVec S_ 1) : IVec S_ 1 :=
  let main_v34 : FVec F S128x10 .f32 := Host.absf main_arg10
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg11
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg7 : FVec F S128 .f32) (main_arg8 : FVec F S128x128 .f32) (main_arg9 : FVec F S128 .f32) (main_arg10 : FVec F S128x10 .f32) (main_arg11 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : FVec F S50000x128 .f32) (main_arg1 : IVec S640000 32) (main_arg2 : IVec S640000 32) (main_arg3 : IVec S50000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x10 .f32) (main_arg11 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_v13 main_v16
-- ==== Kernel.lean ====
abbrev S50000x128 : Shape := ⟨2, ![50000, 128]⟩
abbrev S640000 : Shape := ⟨1, ![640000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S690000 : Shape := ⟨1, ![690000]⟩
abbrev S_ : Shape := ⟨0, ![]⟩
abbrev S690000x1 : Shape := ⟨2, ![690000, 1]⟩
abbrev S2000x128 : Shape := ⟨2, ![2000, 128]⟩
abbrev S690000x128 : Shape := ⟨2, ![690000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x10 : Shape := ⟨2, ![1, 10]⟩
abbrev S64x10 : Shape := ⟨2, ![64, 10]⟩

abbrev nBuf : Space → Nat
  | .hbm => 137
  | .vmem => 21
  | .smem => 0
  | _ => 0

abbrev hbmTy0_0 (i : Nat) : BufTy := match i % 128 with
  | 0 => ⟨S50000x128, .f32⟩
  | 1 => ⟨S640000, .i32⟩
  | 2 => ⟨S640000, .i32⟩
  | 3 => ⟨S50000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x10, .f32⟩
  | 11 => ⟨S10, .f32⟩
  | 12 => ⟨S50000, .i32⟩
  | 13 => ⟨S690000, .i32⟩
  | 14 => ⟨S690000, .i32⟩
  | 15 => ⟨S_, .f32⟩
  | 16 => ⟨S690000, .f32⟩
  | 17 => ⟨S_, .f32⟩
  | 18 => ⟨S50000, .f32⟩
  | 19 => ⟨S690000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S690000, .i32⟩
  | 31 => ⟨S690000, .i1⟩
  | 32 => ⟨S_, .i32⟩
  | 33 => ⟨S690000, .i32⟩
  | 34 => ⟨S690000, .i32⟩
  | 35 => ⟨S690000, .i32⟩
  | 36 => ⟨S690000x1, .i32⟩
  | 37 => ⟨S690000, .f32⟩
  | 38 => ⟨S_, .i32⟩
  | 39 => ⟨S690000, .i32⟩
  | 40 => ⟨S690000, .i1⟩
  | 41 => ⟨S_, .i32⟩
  | 42 => ⟨S690000, .i32⟩
  | 43 => ⟨S690000, .i32⟩
  | 44 => ⟨S690000, .i32⟩
  | 45 => ⟨S690000x1, .i32⟩
  | 46 => ⟨S690000, .f32⟩
  | 47 => ⟨S690000, .f32⟩
  | 48 => ⟨S50000x128, .f32⟩
  | 49 => ⟨S_, .i32⟩
  | 50 => ⟨S690000, .i32⟩
  | 51 => ⟨S690000, .i1⟩
  | 52 => ⟨S_, .i32⟩
  | 53 => ⟨S690000, .i32⟩
  | 54 => ⟨S690000, .i32⟩
  | 55 => ⟨S690000, .i32⟩
  | 56 => ⟨S690000x1, .i32⟩
  | 57 => ⟨S690000x128, .f32⟩
  | 58 => ⟨S690000x1, .f32⟩
  | 59 => ⟨S690000x128, .f32⟩
  | 60 => ⟨S690000x128, .f32⟩
  | 61 => ⟨S_, .f32⟩
  | 62 => ⟨S50000x128, .f32⟩
  | 63 => ⟨S690000x1, .i32⟩
  | 64 => ⟨S50000x128, .f32⟩
  | 65 => ⟨S1x128, .f32⟩
  | 66 => ⟨S50000x128, .f32⟩
  | 67 => ⟨S_, .i32⟩
  | 68 => ⟨S690000, .i32⟩
  | 69 => ⟨S690000, .i1⟩
  | 70 => ⟨S_, .i32⟩
  | 71 => ⟨S690000, .i32⟩
  | 72 => ⟨S690000, .i32⟩
  | 73 => ⟨S690000, .i32⟩
  | 74 => ⟨S690000x1, .i32⟩
  | 75 => ⟨S690000x128, .f32⟩
  | 76 => ⟨S690000x1, .f32⟩
  | 77 => ⟨S690000x128, .f32⟩
  | 78 => ⟨S690000x128, .f32⟩
  | 79 => ⟨S_, .f32⟩
  | 80 => ⟨S50000x128, .f32⟩
  | 81 => ⟨S690000x1, .i32⟩
  | 82 => ⟨S50000x128, .f32⟩
  | 83 => ⟨S1x128, .f32⟩
  | 84 => ⟨S50000x128, .f32⟩
  | 85 => ⟨S_, .i32⟩
  | 86 => ⟨S690000, .i32⟩
  | 87 => ⟨S690000, .i1⟩
  | 88 => ⟨S_, .i32⟩
  | 89 => ⟨S690000, .i32⟩
  | 90 => ⟨S690000, .i32⟩
  | 91 => ⟨S690000, .i32⟩
  | 92 => ⟨S690000x1, .i32⟩
  | 93 => ⟨S690000x128, .f32⟩
  | 94 => ⟨S690000x1, .f32⟩
  | 95 => ⟨S690000x128, .f32⟩
  | 96 => ⟨S690000x128, .f32⟩
  | 97 => ⟨S_, .f32⟩
  | 98 => ⟨S50000x128, .f32⟩
  | 99 => ⟨S690000x1, .i32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S64x128, .f32⟩
  | 106 => ⟨S50000x1, .i32⟩
  | 107 => ⟨S64x128, .f32⟩
  | 108 => ⟨S_, .f32⟩
  | 109 => ⟨S50000, .f32⟩
  | 110 => ⟨S_, .f32⟩
  | 111 => ⟨S64, .f32⟩
  | 112 => ⟨S50000x1, .i32⟩
  | 113 => ⟨S64, .f32⟩
  | 114 => ⟨S_, .f32⟩
  | 115 => ⟨S64, .f32⟩
  | 116 => ⟨S64, .f32⟩
  | 117 => ⟨S64x1, .f32⟩
  | 118 => ⟨S64x128, .f32⟩
  | 119 => ⟨S64x128, .f32⟩
  | 120 => ⟨S1x10, .f32⟩
  | 121 => ⟨S64x10, .f32⟩
  | 122 => ⟨S_, .f32⟩
  | 123 => ⟨S64, .f32⟩
  | 124 => ⟨S_, .f32⟩
  | 125 => ⟨S64, .f32⟩
  | 126 => ⟨S64, .f32⟩
  | 127 => ⟨S64x1, .f32⟩
  | _ => ⟨S50000x128, .f32⟩

abbrev hbmTy0_1 (i : Nat) : BufTy := match i % 128 with
  | 0 => ⟨S64x10, .f32⟩
  | 1 => ⟨S64x10, .f32⟩
  | 2 => ⟨S64x10, .f32⟩
  | 3 => ⟨S_, .f32⟩
  | 4 => ⟨S64, .f32⟩
  | 5 => ⟨S64x1, .f32⟩
  | 6 => ⟨S64x1, .f32⟩
  | 7 => ⟨S64x10, .f32⟩
  | 8 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S64x128, .f32⟩
  | .local _ .vmem, ⟨18, _⟩ => ⟨S128x10, .f32⟩
  | .local _ .vmem, ⟨19, _⟩ => ⟨S1x10, .f32⟩
  | .local _ .vmem, ⟨20, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_c_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_15 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_cst_17 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_18 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call1_cst : Ref sig .tc := ⟨.hbm, 122, rfl⟩
abbrev main_call1_v0 : Ref sig .tc := ⟨.hbm, 123, rfl⟩
abbrev main_call1_cst_0 : Ref sig .tc := ⟨.hbm, 124, rfl⟩
abbrev main_call1_v1 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_call1_v5 : Ref sig .tc := ⟨.hbm, 129, rfl⟩
abbrev main_call1_v6 : Ref sig .tc := ⟨.hbm, 130, rfl⟩
abbrev main_call1_cst_1 : Ref sig .tc := ⟨.hbm, 131, rfl⟩
abbrev main_call1_v7 : Ref sig .tc := ⟨.hbm, 132, rfl⟩
abbrev main_call1_v8 : Ref sig .tc := ⟨.hbm, 133, rfl⟩
abbrev main_call1_v9 : Ref sig .tc := ⟨.hbm, 134, rfl⟩
abbrev main_call1_v10 : Ref sig .tc := ⟨.hbm, 135, rfl⟩
abbrev main_v87 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem1_0 : DmaSem sig := 18
abbrev cc3_sem2_0 : DmaSem sig := 19
abbrev cc3_sem3_0 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  concatenates_S640000_S50000_S690000_d0 : Shape.Concatenates [S640000, S50000] S690000 0
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  reducesTo_S64x10_S64_d1 : S64x10.ReducesTo [1] S64
  h_S_ : 0 < S_.numel
  bcast_S64x1_S64x10_0_1 : S64x1.BroadcastsInDim S64x10 (![0, 1] : Fin 2 → Fin S64x10.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S2000x128_S128x128_S2000x128_1_0_0_1_n_n_wf : DotDims.WF S2000x128 S128x128 S2000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x10.size a ≤ S128x10.size a
  hwx3_1 : ∀ i : grid3.Coords, EltTy.bits .f32 = 32 ∨ (Rect.block (s := S128x10) S128x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x10.size a ≤ S64x10.size a
  hwx3_3 : ∀ i : grid3.Coords, EltTy.bits .f32 = 32 ∨ (Rect.block (s := S64x10) S64x10.size (cc3_transform_3 i) (hinb3_3 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v84) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S64x10.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S640000 : Shape := ⟨1, ![640000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 221
  | .vmem => 0
  | .smem => 0
  | _ => 0

abbrev hbmTy0_0 (i : Nat) : BufTy := match i % 128 with
  | 0 => ⟨S50000x128, .f32⟩
  | 1 => ⟨S640000, .i32⟩
  | 2 => ⟨S640000, .i32⟩
  | 3 => ⟨S50000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x10, .f32⟩
  | 11 => ⟨S10, .f32⟩
  | 12 => ⟨S50000, .i32⟩
  | 13 => ⟨S690000, .i32⟩
  | 14 => ⟨S690000, .i32⟩
  | 15 => ⟨S_, .f32⟩
  | 16 => ⟨S690000, .f32⟩
  | 17 => ⟨S_, .f32⟩
  | 18 => ⟨S50000, .f32⟩
  | 19 => ⟨S690000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S690000, .i32⟩
  | 31 => ⟨S690000, .i1⟩
  | 32 => ⟨S_, .i32⟩
  | 33 => ⟨S690000, .i32⟩
  | 34 => ⟨S690000, .i32⟩
  | 35 => ⟨S690000, .i32⟩
  | 36 => ⟨S690000x1, .i32⟩
  | 37 => ⟨S690000, .f32⟩
  | 38 => ⟨S_, .i32⟩
  | 39 => ⟨S690000, .i32⟩
  | 40 => ⟨S690000, .i1⟩
  | 41 => ⟨S_, .i32⟩
  | 42 => ⟨S690000, .i32⟩
  | 43 => ⟨S690000, .i32⟩
  | 44 => ⟨S690000, .i32⟩
  | 45 => ⟨S690000x1, .i32⟩
  | 46 => ⟨S690000, .f32⟩
  | 47 => ⟨S690000, .f32⟩
  | 48 => ⟨S50000x128, .f32⟩
  | 49 => ⟨S_, .i32⟩
  | 50 => ⟨S690000, .i32⟩
  | 51 => ⟨S690000, .i1⟩
  | 52 => ⟨S_, .i32⟩
  | 53 => ⟨S690000, .i32⟩
  | 54 => ⟨S690000, .i32⟩
  | 55 => ⟨S690000, .i32⟩
  | 56 => ⟨S690000x1, .i32⟩
  | 57 => ⟨S690000x128, .f32⟩
  | 58 => ⟨S690000x1, .f32⟩
  | 59 => ⟨S690000x128, .f32⟩
  | 60 => ⟨S690000x128, .f32⟩
  | 61 => ⟨S_, .f32⟩
  | 62 => ⟨S50000x128, .f32⟩
  | 63 => ⟨S690000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000, .i32⟩
  | 72 => ⟨S690000, .i32⟩
  | 73 => ⟨S690000, .i32⟩
  | 74 => ⟨S_, .f32⟩
  | 75 => ⟨S690000, .f32⟩
  | 76 => ⟨S_, .f32⟩
  | 77 => ⟨S50000, .f32⟩
  | 78 => ⟨S690000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S690000, .i32⟩
  | 90 => ⟨S690000, .i1⟩
  | 91 => ⟨S_, .i32⟩
  | 92 => ⟨S690000, .i32⟩
  | 93 => ⟨S690000, .i32⟩
  | 94 => ⟨S690000, .i32⟩
  | 95 => ⟨S690000x1, .i32⟩
  | 96 => ⟨S690000, .f32⟩
  | 97 => ⟨S_, .i32⟩
  | 98 => ⟨S690000, .i32⟩
  | 99 => ⟨S690000, .i1⟩
  | 100 => ⟨S_, .i32⟩
  | 101 => ⟨S690000, .i32⟩
  | 102 => ⟨S690000, .i32⟩
  | 103 => ⟨S690000, .i32⟩
  | 104 => ⟨S690000x1, .i32⟩
  | 105 => ⟨S690000, .f32⟩
  | 106 => ⟨S690000, .f32⟩
  | 107 => ⟨S50000x128, .f32⟩
  | 108 => ⟨S_, .i32⟩
  | 109 => ⟨S690000, .i32⟩
  | 110 => ⟨S690000, .i1⟩
  | 111 => ⟨S_, .i32⟩
  | 112 => ⟨S690000, .i32⟩
  | 113 => ⟨S690000, .i32⟩
  | 114 => ⟨S690000, .i32⟩
  | 115 => ⟨S690000x1, .i32⟩
  | 116 => ⟨S690000x128, .f32⟩
  | 117 => ⟨S690000x1, .f32⟩
  | 118 => ⟨S690000x128, .f32⟩
  | 119 => ⟨S690000x128, .f32⟩
  | 120 => ⟨S_, .f32⟩
  | 121 => ⟨S50000x128, .f32⟩
  | 122 => ⟨S690000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000, .i32⟩
  | 3 => ⟨S690000, .i32⟩
  | 4 => ⟨S690000, .i32⟩
  | 5 => ⟨S_, .f32⟩
  | 6 => ⟨S690000, .f32⟩
  | 7 => ⟨S_, .f32⟩
  | 8 => ⟨S50000, .f32⟩
  | 9 => ⟨S690000x1, .i32⟩
  | 10 => ⟨S50000, .f32⟩
  | 11 => ⟨S_, .f32⟩
  | 12 => ⟨S50000, .f32⟩
  | 13 => ⟨S50000, .i1⟩
  | 14 => ⟨S50000, .f32⟩
  | 15 => ⟨S_, .f32⟩
  | 16 => ⟨S_, .f32⟩
  | 17 => ⟨S50000, .f32⟩
  | 18 => ⟨S50000, .f32⟩
  | 19 => ⟨S_, .i32⟩
  | 20 => ⟨S690000, .i32⟩
  | 21 => ⟨S690000, .i1⟩
  | 22 => ⟨S_, .i32⟩
  | 23 => ⟨S690000, .i32⟩
  | 24 => ⟨S690000, .i32⟩
  | 25 => ⟨S690000, .i32⟩
  | 26 => ⟨S690000x1, .i32⟩
  | 27 => ⟨S690000, .f32⟩
  | 28 => ⟨S_, .i32⟩
  | 29 => ⟨S690000, .i32⟩
  | 30 => ⟨S690000, .i1⟩
  | 31 => ⟨S_, .i32⟩
  | 32 => ⟨S690000, .i32⟩
  | 33 => ⟨S690000, .i32⟩
  | 34 => ⟨S690000, .i32⟩
  | 35 => ⟨S690000x1, .i32⟩
  | 36 => ⟨S690000, .f32⟩
  | 37 => ⟨S690000, .f32⟩
  | 38 => ⟨S50000x128, .f32⟩
  | 39 => ⟨S_, .i32⟩
  | 40 => ⟨S690000, .i32⟩
  | 41 => ⟨S690000, .i1⟩
  | 42 => ⟨S_, .i32⟩
  | 43 => ⟨S690000, .i32⟩
  | 44 => ⟨S690000, .i32⟩
  | 45 => ⟨S690000, .i32⟩
  | 46 => ⟨S690000x1, .i32⟩
  | 47 => ⟨S690000x128, .f32⟩
  | 48 => ⟨S690000x1, .f32⟩
  | 49 => ⟨S690000x128, .f32⟩
  | 50 => ⟨S690000x128, .f32⟩
  | 51 => ⟨S_, .f32⟩
  | 52 => ⟨S50000x128, .f32⟩
  | 53 => ⟨S690000x1, .i32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S64x128, .f32⟩
  | 60 => ⟨S50000x1, .i32⟩
  | 61 => ⟨S64x128, .f32⟩
  | 62 => ⟨S_, .f32⟩
  | 63 => ⟨S50000, .f32⟩
  | 64 => ⟨S_, .f32⟩
  | 65 => ⟨S64, .f32⟩
  | 66 => ⟨S50000x1, .i32⟩
  | 67 => ⟨S64, .f32⟩
  | 68 => ⟨S_, .f32⟩
  | 69 => ⟨S64, .f32⟩
  | 70 => ⟨S64, .f32⟩
  | 71 => ⟨S64x1, .f32⟩
  | 72 => ⟨S64x128, .f32⟩
  | 73 => ⟨S64x128, .f32⟩
  | 74 => ⟨S64x10, .f32⟩
  | 75 => ⟨S1x10, .f32⟩
  | 76 => ⟨S64x10, .f32⟩
  | 77 => ⟨S64x10, .f32⟩
  | 78 => ⟨S_, .f32⟩
  | 79 => ⟨S64, .f32⟩
  | 80 => ⟨S_, .f32⟩
  | 81 => ⟨S64, .f32⟩
  | 82 => ⟨S64, .f32⟩
  | 83 => ⟨S64x1, .f32⟩
  | 84 => ⟨S64x10, .f32⟩
  | 85 => ⟨S64x10, .f32⟩
  | 86 => ⟨S64x10, .f32⟩
  | 87 => ⟨S_, .f32⟩
  | 88 => ⟨S64, .f32⟩
  | 89 => ⟨S64x1, .f32⟩
  | 90 => ⟨S64x1, .f32⟩
  | 91 => ⟨S64x10, .f32⟩
  | 92 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_c_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call1_cst : Ref sig .tc := ⟨.hbm, 68, rfl⟩
abbrev main_call1_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v54 : Ref sig .tc := ⟨.hbm, 87, rfl⟩
abbrev main_c_13 : Ref sig .tc := ⟨.hbm, 88, rfl⟩
abbrev main_v55 : Ref sig .tc := ⟨.hbm, 89, rfl⟩
abbrev main_v56 : Ref sig .tc := ⟨.hbm, 90, rfl⟩
abbrev main_c_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_15 : Ref sig .tc := ⟨.hbm, 97, rfl⟩
abbrev main_v62 : Ref sig .tc := ⟨.hbm, 98, rfl⟩
abbrev main_v63 : Ref sig .tc := ⟨.hbm, 99, rfl⟩
abbrev main_c_16 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_17 : Ref sig .tc := ⟨.hbm, 108, rfl⟩
abbrev main_v71 : Ref sig .tc := ⟨.hbm, 109, rfl⟩
abbrev main_v72 : Ref sig .tc := ⟨.hbm, 110, rfl⟩
abbrev main_c_18 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_19 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_call3_cst : Ref sig .tc := ⟨.hbm, 127, rfl⟩
abbrev main_call3_v0 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_20 : Ref sig .tc := ⟨.hbm, 133, rfl⟩
abbrev main_v91 : Ref sig .tc := ⟨.hbm, 134, rfl⟩
abbrev main_cst_21 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_22 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_23 : Ref sig .tc := ⟨.hbm, 143, rfl⟩
abbrev main_call4_v0 : Ref sig .tc := ⟨.hbm, 144, rfl⟩
abbrev main_call4_v1 : Ref sig .tc := ⟨.hbm, 145, rfl⟩
abbrev main_v98 : Ref sig .tc := ⟨.hbm, 146, rfl⟩
abbrev main_c_24 : Ref sig .tc := ⟨.hbm, 147, rfl⟩
abbrev main_v99 : Ref sig .tc := ⟨.hbm, 148, rfl⟩
abbrev main_v100 : Ref sig .tc := ⟨.hbm, 149, rfl⟩
abbrev main_c_25 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_c_26 : Ref sig .tc := ⟨.hbm, 156, rfl⟩
abbrev main_v106 : Ref sig .tc := ⟨.hbm, 157, rfl⟩
abbrev main_v107 : Ref sig .tc := ⟨.hbm, 158, rfl⟩
abbrev main_c_27 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_c_28 : Ref sig .tc := ⟨.hbm, 167, rfl⟩
abbrev main_v115 : Ref sig .tc := ⟨.hbm, 168, rfl⟩
abbrev main_v116 : Ref sig .tc := ⟨.hbm, 169, rfl⟩
abbrev main_c_29 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_cst_30 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_31 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_32 : Ref sig .tc := ⟨.hbm, 190, rfl⟩
abbrev main_v134 : Ref sig .tc := ⟨.hbm, 191, rfl⟩
abbrev main_cst_33 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_cst_34 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_call5_cst : Ref sig .tc := ⟨.hbm, 206, rfl⟩
abbrev main_call5_v0 : Ref sig .tc := ⟨.hbm, 207, rfl⟩
abbrev main_call5_cst_0 : Ref sig .tc := ⟨.hbm, 208, rfl⟩
abbrev main_call5_v1 : Ref sig .tc := ⟨.hbm, 209, rfl⟩
abbrev main_call5_v2 : Ref sig .tc := ⟨.hbm, 210, rfl⟩
abbrev main_call5_v3 : Ref sig .tc := ⟨.hbm, 211, rfl⟩
abbrev main_call5_v4 : Ref sig .tc := ⟨.hbm, 212, rfl⟩
abbrev main_call5_v5 : Ref sig .tc := ⟨.hbm, 213, rfl⟩
abbrev main_call5_v6 : Ref sig .tc := ⟨.hbm, 214, rfl⟩
abbrev main_call5_cst_1 : Ref sig .tc := ⟨.hbm, 215, rfl⟩
abbrev main_call5_v7 : Ref sig .tc := ⟨.hbm, 216, rfl⟩
abbrev main_call5_v8 : Ref sig .tc := ⟨.hbm, 217, rfl⟩
abbrev main_call5_v9 : Ref sig .tc := ⟨.hbm, 218, rfl⟩
abbrev main_call5_v10 : Ref sig .tc := ⟨.hbm, 219, rfl⟩
abbrev main_v147 : Ref sig .tc := ⟨.hbm, 220, rfl⟩

abbrev nD : Nat := 1
abbrev τ : Topo := Topo.v7x

variable {F : FTy → Type} [FloatOps F]

class Facts₀ : Prop where
  concatenates_S640000_S50000_S690000_d0 : Shape.Concatenates [S640000, S50000] S690000 0
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x128_S128x128_S50000x128_1_0_0_1_n_n_wf : DotDims.WF S50000x128 S128x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KernelRun.lean ====
/-
  The idealized kernel's run, with its result named.

  The program is four kernel launches among stretches of host operations.  Its buffers' contents at the boundaries
  between them are a fold from the launch memory: a stretch of host operations applies its operations, a launch
  leaves each of its arrays at what its write-backs hold after the last grid point.  Every weakly fair execution
  terminates, nothing faulting, in a state whose unscoped buffers hold the last boundary's contents; so the result
  buffer ends at the last boundary's contents there, and each argument array at its launch contents.
-/
import proofs.«136418_j1666447311245_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents, and every argument array as launched. -/
theorem run_named : θ_run defs (onTc (τ := τ) (main (F := F))) ⟨m, fun _ => 0, ρ⟩ (fun r => ∀ c : Dev nD,
      r.2.mem ((c.tc : Thread nD τ).loc main_v87) = W11 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v87 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.Hand

end
-- ==== Proof.LibPlainDot.lean ====
/-
  A plain matrix product read at an index.

  For the dimension numbers of an M×K by K×N product (contract the left operand's columns against the right
  operand's rows, no batch axis), the sum over the contraction index of the products of the operands at the
  dot's operand indices is the textbook sum: entry (r, c) is the sum over k of left (r, k) times right (k, c).
  The same sum reads a vector unit's matmul into a zero accumulator and the host's dot_general at the ideal
  values, so the two are one function of their operands.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The textbook product of an M×K and a K×N array of extended reals. -/
def mm {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- The left operand's index at output index `j` and contraction index `q` is (row of `j`, `q`). -/
theorem lhsIdx_plain {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  have hk := contrEquiv1_symm_val (DotDims.plain M K N) K rfl rfl k
  match a with
  | ⟨0, _⟩ => rfl
  | ⟨1, _⟩ => exact ((DotDims.plain M K N).lhsIdx_val_of_single rfl j _).trans hk

/-- The right operand's index there is (`q`, column of `j`). -/
theorem rhsIdx_plain {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  have hk := contrEquiv1_symm_val (DotDims.plain M K N) K rfl rfl k
  match a with
  | ⟨0, _⟩ => exact ((DotDims.plain M K N).rhsIdx_val_of_single rfl j _).trans hk
  | ⟨1, _⟩ => rfl

/-- The contraction's sum, re-indexed by the one contracted coordinate. -/
theorem sum_plain {M K N : Nat} (A : (⟨2, ![M, K]⟩ : Shape).Idx → EReal) (B : (⟨2, ![K, N]⟩ : Shape).Idx → EReal)
    (j : (⟨2, ![M, N]⟩ : Shape).Idx) :
    ∑ q : (DotDims.plain M K N).contr.Idx, A ((DotDims.plain M K N).lhsIdx j q) * B ((DotDims.plain M K N).rhsIdx j q)
      = mm A B j := by
  unfold mm
  rw [← Equiv.sum_comp (contrEquiv1 (DotDims.plain M K N) K rfl rfl).symm]
  refine Finset.sum_congr rfl fun k _ => ?_
  rw [lhsIdx_plain, rhsIdx_plain]
  rfl

/-- A vector unit's matmul into the zero accumulator is the textbook product. -/
theorem matmul_zero_eq_mm {M K N : Nat} {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant ⟨2, ![M, N]⟩ .f32 0x00000000#32) = mm A B := by
  funext j
  rw [Ideal.matmul_constant_zero_apply]
  exact sum_plain A B j

/-- The host's dot_general is the textbook product, whatever the schedule. -/
theorem dotGeneral_eq_mm {M K N : Nat} {φ₁ φ₂ : FTy} (prec : Option ContractPrecision) (sched : HostSchedule)
    (A : FVec Ideal ⟨2, ![M, K]⟩ φ₁) (B : FVec Ideal ⟨2, ![K, N]⟩ φ₂) :
    FloatOps.dotGeneral (DotDims.plain M K N) prec sched A B = mm A B := by
  funext j
  rw [Ideal.dotGeneral_apply]
  exact sum_plain A B j

end Idealize.ShloMosaic.PlainDot

end
-- ==== Proof.LibRowBlocks.lean ====
/-
  The rows of a matrix product.

  Entry (r, c) of A·B depends on row r of A only: it is the sum over k of A (r, k) · B (k, c). So if a block Ab of
  Mb rows holds rows base … base + Mb − 1 of A, then row r of Ab·B is row base + r of A·B. This is what lets a
  product computed block of rows by block of rows be read as one product of the whole arrays.
-/
import proofs.«136418_j1666447311245_1_alg».proof.Proof.LibPlainDot

noncomputable section

open scoped BigOperators

namespace Idealize.ShloMosaic.RowBlocks

open Idealize.ShloMosaic Idealize.ShloMosaic.ValueIdx Idealize.ShloMosaic.PlainDot

/-- If row `j 0` of the block `Ab` is row `i 0` of `A` and the two indices name the same column, the block's product
    with `B` at `j` is the whole product at `i`. -/
theorem mm_block_entry {M Mb K N : Nat} (A : (⟨2, ![M, K]⟩ : Shape).Idx → EReal) (Ab : (⟨2, ![Mb, K]⟩ : Shape).Idx → EReal)
    (B : (⟨2, ![K, N]⟩ : Shape).Idx → EReal) (i : (⟨2, ![M, N]⟩ : Shape).Idx) (j : (⟨2, ![Mb, N]⟩ : Shape).Idx)
    (hrow : ∀ k : Fin K, Ab (ix2 (j 0) k) = A (ix2 (i 0) k)) (hcol : (j 1).val = (i 1).val) :
    mm Ab B j = mm A B i := by
  unfold mm
  refine Finset.sum_congr rfl fun k _ => ?_
  rw [hrow k]
  refine congrArg (A (ix2 (i 0) k) * B ·) ?_
  funext a
  match a with
  | ⟨0, _⟩ => rfl
  | ⟨1, _⟩ => exact Fin.ext hcol

end Idealize.ShloMosaic.RowBlocks

end
-- ==== Proof.Region0.lean ====
/-
  The first launch: x · W₁, computed block of rows by block of rows.

  The grid has 25 points.  Point t stages rows 2000·t … 2000·t + 1999 of the left operand and the whole right operand,
  multiplies them on the matrix unit into a zero accumulator, and writes the 2000 × 128 product back as rows
  2000·t … 2000·t + 1999 of the result.  Entry (r, c) of a product depends on row r of the left operand only, so what
  point t writes back is block t of the one product of the whole arrays; the 25 blocks tile the 50000 rows, so the result
  array ends holding that product.
-/
import proofs.«136418_j1666447311245_1_alg».proof.Proof.Gen.KernelIdeal.Frame
import proofs.«136418_j1666447311245_1_alg».proof.Proof.LibRowBlocks
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.PlainDot Idealize.ShloMosaic.RowBlocks

variable (V : (c : Dev nD) → (b : Ref sig .tc) → Buf (Elt Ideal) ((c : Thread nD τ).loc b))

theorem hz2 : (![0, 0] : Fin 2 → Nat) = fun _ => 0 := funext fun a => by fin_cases a <;> rfl

/-- The matrix unit's product into the zero accumulator is the textbook product of the two staged blocks. -/
theorem pay0_eq (x0 : Vec Ideal S2000x128 .f32) (x1 : Vec Ideal S128x128 .f32) :
    k0_pay1 x0 x1 = mm (M := 2000) (K := 128) (N := 128) x0 x1 :=
  matmul_zero_eq_mm (M := 2000) (K := 128) (N := 128) none x0 x1

/-- The windows' block indices over the grid: the left operand and the result move down by one block of rows per point,
    the right operand stays. -/
theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of rows of the result is some point's. -/
theorem idx0_onto : ∀ q : Fin 25, ∃ t : Fin cfg0.N, t.val = q.val :=
  (by decide +kernel : ∀ q : Fin 25, ∃ t : Fin grid0.N, t.val = q.val)

/-- The left operand's block at point t is rows 2000·t … of the array. -/
theorem iblk0_left (c : Dev nD) (t : Fin cfg0.N) (y : S2000x128.Idx) (k : S50000x128.Idx)
    (hk0 : (k 0).val = t.val * 2000 + (y 0).val) (hk1 : (k 1).val = (y 1).val) :
    (iblk0 V c 0 t : S2000x128.Idx → EReal) y = (V c main_arg0 : S50000x128.Idx → EReal) k := by
  obtain ⟨e0, e1, -, -, -, -⟩ := idx0_facts t
  unfold iblk0
  rw [View.read_apply]
  show V c main_arg0 _ = V c main_arg0 _
  congr 1
  funext a
  apply Fin.ext
  match a with
  | ⟨0, _⟩ => show win0_0.index t (0 : Fin 2) * 2000 + 1 * (y 0).val = (k 0).val; rw [e0, hk0]; omega
  | ⟨1, _⟩ => show win0_0.index t (1 : Fin 2) * 128 + 1 * (y 1).val = (k 1).val; rw [e1, hk1]; omega

/-- The right operand's block at every point is the whole array. -/
theorem iblk0_right (c : Dev nD) (t : Fin cfg0.N) :
    (iblk0 V c 1 t : S128x128.Idx → EReal) = (V c main_arg4 : S128x128.Idx → EReal) := by
  obtain ⟨-, -, e2, e3, -, -⟩ := idx0_facts t
  funext y
  unfold iblk0
  rw [View.read_apply]
  show V c main_arg4 _ = V c main_arg4 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What point t writes back is block t of the product of the whole arrays. -/
theorem flushed0_eq (c : Dev nD) (t : Fin cfg0.N) :
    (dat0 V c).flushed 2 t = ((cfg0.win 2).blk t).view.read (Elt Ideal)
      (mm (M := 50000) (K := 128) (N := 128) (V c main_arg0) (V c main_arg4)) := by
  show (cfg0.win 2).cut (grid0.coords t) ((dat0 V c).after 2 t) = _
  rw [after0_2]
  unfold out0_2
  rw [View.canon_unit_zero hz2]
  simp only [View.ld_unit_zero (S := S2000x128) hz2, View.ld_unit_zero (S := S128x128) hz2]
  rw [pay0_eq]
  obtain ⟨-, -, -, -, e4, e5⟩ := idx0_facts t
  funext j
  show mm (M := 2000) (K := 128) (N := 128) (iblk0 V c 0 t) (iblk0 V c 1 t) j
    = mm (M := 50000) (K := 128) (N := 128) (V c main_arg0) (V c main_arg4) (((cfg0.win 2).blk t).view.emb j)
  rw [iblk0_right V c t]
  have h0 : ((((cfg0.win 2).blk t).view.emb j : S50000x128.Idx) 0).val = t.val * 2000 + (j 0).val := by
    show win0_2.index t (0 : Fin 2) * 2000 + 1 * (j 0).val = _; rw [e4]; omega
  have h1 : ((((cfg0.win 2).blk t).view.emb j : S50000x128.Idx) 1).val = (j 1).val := by
    show win0_2.index t (1 : Fin 2) * 128 + 1 * (j 1).val = _; rw [e5]; omega
  refine mm_block_entry (M := 50000) (Mb := 2000) (K := 128) (N := 128) _ _ _ _ j (fun k => ?_) h1.symm
  exact iblk0_left V c t _ _ h0 rfl

/-- An index of the result array is in point t's block iff each coordinate is in the block's range. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v26).slice (win0_2.rect t)).set ↔ _
  rw [View.set_slice_whole, Rect.mem_set_unit]
  exact Iff.rfl

/-- The 25 blocks of rows tile the result. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx0_onto ⟨(i 0).val / 2000, by omega⟩
  obtain ⟨-, -, -, -, e4, e5⟩ := idx0_facts t
  refine ⟨t, flush0_2 t, ?_⟩
  rw [mem_blk0]
  intro a
  have ht' : t.val = (i 0).val / 2000 := ht
  match a with
  | ⟨0, _⟩ => show win0_2.index t (0 : Fin 2) * 2000 ≤ (i 0).val ∧ (i 0).val < win0_2.index t (0 : Fin 2) * 2000 + 2000; rw [e4]; omega
  | ⟨1, _⟩ => show win0_2.index t (1 : Fin 2) * 128 ≤ (i 1).val ∧ (i 1).val < win0_2.index t (1 : Fin 2) * 128 + 128; rw [e5]; omega

/-- After the launch the result array holds the product of the two operand arrays as the launch found them. -/
theorem final0 (c : Dev nD) :
    (dat0 V c).arrAt 2 cfg0.N = mm (M := 50000) (K := 128) (N := 128) (V c main_arg0) (V c main_arg4) :=
  (dat0 V c).arrAt_eq_of_cover 2 _ (fun t _ => flushed0_eq V c t) cover0

end Cert.KernelIdeal.Hand

end
-- ==== Proof.LibHostIdx.lean ====
/-
  Layout operations of the host programs read at an index, over literal ranks: a vector broadcast into a one-column
  matrix, a vector cast to a one-column or one-row matrix and back.  Each moves no data: the element at (e, 0) or (0, k)
  of the matrix is the vector's element e or k.
-/
import Idealize.ShloMosaic.Lib.ValueIdx
import Idealize.ShloMosaic.Lib.Pipeline.Value

noncomputable section

namespace Cert.Lib.HostIdx

open Idealize.ShloMosaic Idealize.ShloMosaic.ValueIdx

variable {α : Type}

/-- A vector broadcast along axis 0 into a one-column matrix: entry (e, 0) is the vector's entry e. -/
theorem bcastCol_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

/-- A vector cast to a one-column matrix: entry (n, 0) is the vector's entry n. -/
theorem castCol_apply {N : Nat} (h : (⟨1, ![N]⟩ : Shape).ShapeCasts ⟨2, ![N, 1]⟩)
    (v : (⟨1, ![N]⟩ : Shape).Idx → α) (n : Fin N) :
    shapeCast ⟨2, ![N, 1]⟩ v h (ix2 n (0 : Fin 1)) = v (ix1 n) :=
  shapeCast_apply v h (ix2 n (0 : Fin 1)) (ix1 n) (by
    rw [Shape.rowMajor_val_one, Shape.rowMajor_val_two]
    show n.val = n.val * 1 + 0
    omega)

/-- A one-column matrix cast to a vector: entry n is the matrix's entry (n, 0). -/
theorem castFlat_apply {N : Nat} (h : (⟨2, ![N, 1]⟩ : Shape).ShapeCasts ⟨1, ![N]⟩)
    (v : (⟨2, ![N, 1]⟩ : Shape).Idx → α) (n : Fin N) :
    shapeCast ⟨1, ![N]⟩ v h (ix1 n) = v (ix2 n (0 : Fin 1)) :=
  shapeCast_apply v h (ix1 n) (ix2 n (0 : Fin 1)) (by
    rw [Shape.rowMajor_val_one, Shape.rowMajor_val_two]
    show n.val * 1 + 0 = n.val
    omega)

/-- A vector cast to a one-row matrix: entry (0, k) is the vector's entry k. -/
theorem castRow_apply {D : Nat} (h : (⟨1, ![D]⟩ : Shape).ShapeCasts ⟨2, ![1, D]⟩)
    (v : (⟨1, ![D]⟩ : Shape).Idx → α) (k : Fin D) :
    shapeCast ⟨2, ![1, D]⟩ v h (ix2 (0 : Fin 1) k) = v (ix1 k) :=
  shapeCast_apply v h (ix2 (0 : Fin 1) k) (ix1 k) (by
    rw [Shape.rowMajor_val_one, Shape.rowMajor_val_two]
    show k.val = 0 * D + k.val
    omega)

/-- A one-column matrix cast to a one-row matrix: entry (0, q) is the column's entry (q, 0). -/
theorem castColRow_apply {D : Nat} (h : (⟨2, ![D, 1]⟩ : Shape).ShapeCasts ⟨2, ![1, D]⟩)
    (v : (⟨2, ![D, 1]⟩ : Shape).Idx → α) (q : Fin D) :
    shapeCast ⟨2, ![1, D]⟩ v h (ix2 (0 : Fin 1) q) = v (ix2 q (0 : Fin 1)) :=
  shapeCast_apply v h (ix2 (0 : Fin 1) q) (ix2 q (0 : Fin 1)) (by
    rw [Shape.rowMajor_val_two, Shape.rowMajor_val_two]
    show q.val * 1 + 0 = 0 * D + q.val
    omega)

end Cert.Lib.HostIdx

end
-- ==== Proof.RowForms.lean ====
/-
  What the launches' bodies do to a block besides the product, entry by entry.

  The second and third launch add a one-row bias array to every row of a block and take the maximum with zero
  (`rowBiasRelu`); the fourth adds a one-row bias array to every row of its product (`rowAdd`).  A bias handed over as a
  one-row array [1, n] is the bias vector [n] recast: entry (0, k) of the array is entry k of the vector.
-/
import proofs.«136418_j1666447311245_1_alg».proof.KernelIdeal
import proofs.«136418_j1666447311245_1_alg».proof.Proof.Gen.KernelIdeal
import proofs.«136418_j1666447311245_1_alg».proof.Proof.LibHostIdx
import Idealize.ShloMosaic.PureOps.Ideal.Laws
import Idealize.ShloMosaic.Lib.Pipeline.Value
import Idealize.ShloMosaic.Lib.ValueIdx

noncomputable section

namespace Cert.KernelIdeal.Hand

open Cert.KernelIdeal Idealize.ShloMosaic Idealize.ShloMosaic.ValueIdx

/-- The bias row added to every row, then the maximum with zero. -/
def rowBiasRelu {M : Nat} (A : (⟨2, ![M, 128]⟩ : Shape).Idx → EReal) (brow : (⟨2, ![1, 128]⟩ : Shape).Idx → EReal) :
    (⟨2, ![M, 128]⟩ : Shape).Idx → EReal :=
  fun i => FloatOps.maximumf (F := Ideal) (φ := .f32)
    (FloatOps.addf (F := Ideal) (φ := .f32) (A i) (brow (ix2 (0 : Fin 1) (⟨(i 1).val, (i 1).isLt⟩ : Fin 128))))
    (FloatOps.ofBits (F := Ideal) .f32 0x00000000#32)

/-- The bias row added to every row. -/
def rowAdd {M N : Nat} (A : (⟨2, ![M, N]⟩ : Shape).Idx → EReal) (brow : (⟨2, ![1, N]⟩ : Shape).Idx → EReal) :
    (⟨2, ![M, N]⟩ : Shape).Idx → EReal :=
  fun i => FloatOps.addf (F := Ideal) (φ := .f32) (A i) (brow (ix2 (0 : Fin 1) (⟨(i 1).val, (i 1).isLt⟩ : Fin N)))

/-- The second and third launch's pointwise operations on a block are `rowBiasRelu`. -/
theorem body_biasRelu (x0 : Vec Ideal S2000x128 .f32) (x2 : Vec Ideal S1x128 .f32) :
    maximumf (F := Ideal)
        (addf (shapeCast S2000x128 x0 Facts₀.shapeCasts_S2000x128_S2000x128)
          (broadcastTo S2000x128 (shapeCast S1x128 x2 Facts₀.shapeCasts_S1x128_S1x128) Facts₀.broadcasts_S1x128_S2000x128))
        (broadcast S2000x128 (Scalar.ofBits .f32 0x00000000#32))
      = rowBiasRelu (M := 2000) x0 x2 := by
  funext y
  rw [shapeCast_self, shapeCast_self]
  show FloatOps.maximumf (F := Ideal) (φ := .f32) (FloatOps.addf (F := Ideal) (φ := .f32) (x0 y) (broadcastTo S2000x128 (x2 : S1x128.Idx → EReal) Facts₀.broadcasts_S1x128_S2000x128 y)) _ = _
  rw [broadcastTo_apply (x2 : S1x128.Idx → EReal) Facts₀.broadcasts_S1x128_S2000x128 y (ix2 (0 : Fin 1) (⟨(y 1).val, (y 1).isLt⟩ : Fin 128)) (fun a => by
    match a with
    | ⟨0, _⟩ => show (0 : Nat) = if (1 : Nat) = 1 then 0 else _; rw [if_pos rfl]
    | ⟨1, _⟩ => show (y 1).val = if (128 : Nat) = 1 then 0 else (y 1).val; rw [if_neg (by decide)])]
  rfl

/-- The fourth launch's bias broadcast over the rows of its product is `rowAdd`. -/
theorem body_rowAdd (p : FVec Ideal S64x10 .f32) (x4 : Vec Ideal S1x10 .f32) :
    addf (F := Ideal) p (broadcastTo S64x10 (shapeCast S1x10 x4 Facts₀.shapeCasts_S1x10_S1x10) Facts₀.broadcasts_S1x10_S64x10)
      = rowAdd (M := 64) (N := 10) p x4 := by
  funext y
  rw [shapeCast_self]
  show FloatOps.addf (F := Ideal) (φ := .f32) (p y) (broadcastTo S64x10 (x4 : S1x10.Idx → EReal) Facts₀.broadcasts_S1x10_S64x10 y) = _
  rw [broadcastTo_apply (x4 : S1x10.Idx → EReal) Facts₀.broadcasts_S1x10_S64x10 y (ix2 (0 : Fin 1) (⟨(y 1).val, (y 1).isLt⟩ : Fin 10)) (fun a => by
    match a with
    | ⟨0, _⟩ => show (0 : Nat) = if (1 : Nat) = 1 then 0 else _; rw [if_pos rfl]
    | ⟨1, _⟩ => show (y 1).val = if (10 : Nat) = 1 then 0 else (y 1).val; rw [if_neg (by decide)])]
  rfl

end Cert.KernelIdeal.Hand

end
-- ==== Proof.Region1.lean ====
/-
  The second launch: max (a + b) 0 · W, computed block of rows by block of rows.

  The grid has 25 points.  Point t stages rows 2000·t … 2000·t + 1999 of the aggregate, the bias as a one-row array and the
  whole weight array; adds the bias to every row of the block, takes the maximum with zero, multiplies by the weights on
  the matrix unit into a zero accumulator, and writes the 2000 × 128 product back as the same rows of the result.  The
  bias and the rectifier act on each entry by itself and entry (r, c) of a product depends on row r of the left operand
  only, so what point t writes back is block t of the one product of the whole rectified array; the 25 blocks tile the
  50000 rows.
-/
import proofs.«136418_j1666447311245_1_alg».proof.Proof.Gen.KernelIdeal.Frame
import proofs.«136418_j1666447311245_1_alg».proof.Proof.LibRowBlocks
import proofs.«136418_j1666447311245_1_alg».proof.Proof.RowForms
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.PlainDot Idealize.ShloMosaic.RowBlocks

variable (V : (c : Dev nD) → (b : Ref sig .tc) → Buf (Elt Ideal) ((c : Thread nD τ).loc b))

theorem hz1 : (![0, 0] : Fin 2 → Nat) = fun _ => 0 := funext fun a => by fin_cases a <;> rfl

/-- The body's value: the textbook product of the rectified block and the staged weights. -/
theorem pay1_eq (x0 : Vec Ideal S2000x128 .f32) (x2 : Vec Ideal S1x128 .f32) (x8 : Vec Ideal S128x128 .f32) :
    k1_pay1 x0 x2 x8 = mm (M := 2000) (K := 128) (N := 128) (rowBiasRelu (M := 2000) x0 x2) x8 := by
  unfold k1_pay1
  exact (matmul_zero_eq_mm (M := 2000) (K := 128) (N := 128) none _ x8).trans
    (congrArg (fun A => mm (M := 2000) (K := 128) (N := 128) A x8) (body_biasRelu x0 x2))

/-- The windows' block indices over the grid: the aggregate and the result move down by one block of rows per point,
    the bias row and the weights stay. -/
theorem idx1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block of rows of the result is some point's. -/
theorem idx1_onto : ∀ q : Fin 25, ∃ t : Fin cfg1.N, t.val = q.val :=
  (by decide +kernel : ∀ q : Fin 25, ∃ t : Fin grid1.N, t.val = q.val)

/-- The aggregate's block at point t is rows 2000·t … of the array. -/
theorem iblk1_left (c : Dev nD) (t : Fin cfg1.N) (y : S2000x128.Idx) (k : S50000x128.Idx)
    (hk0 : (k 0).val = t.val * 2000 + (y 0).val) (hk1 : (k 1).val = (y 1).val) :
    (iblk1 V c 0 t : S2000x128.Idx → EReal) y = (V c main_v39 : S50000x128.Idx → EReal) k := by
  obtain ⟨e0, e1, -, -, -, -, -, -⟩ := idx1_facts t
  unfold iblk1
  rw [View.read_apply]
  show V c main_v39 _ = V c main_v39 _
  congr 1
  funext a
  apply Fin.ext
  match a with
  | ⟨0, _⟩ => show win1_0.index t (0 : Fin 2) * 2000 + 1 * (y 0).val = (k 0).val; rw [e0, hk0]; omega
  | ⟨1, _⟩ => show win1_0.index t (1 : Fin 2) * 128 + 1 * (y 1).val = (k 1).val; rw [e1, hk1]; omega

/-- The bias row's block at every point is the whole one-row array. -/
theorem iblk1_bias (c : Dev nD) (t : Fin cfg1.N) :
    (iblk1 V c 1 t : S1x128.Idx → EReal) = (V c main_v40 : S1x128.Idx → EReal) := by
  obtain ⟨-, -, e2, e3, -, -, -, -⟩ := idx1_facts t
  funext y
  unfold iblk1
  rw [View.read_apply]
  show V c main_v40 _ = V c main_v40 _
  congr 1
  funext a
  apply Fin.ext
  match a with
  | ⟨0, _⟩ => show win1_1.index t (0 : Fin 2) * 1 + 1 * (y 0).val = (y 0).val; rw [e2]; omega
  | ⟨1, _⟩ => show win1_1.index t (1 : Fin 2) * 128 + 1 * (y 1).val = (y 1).val; rw [e3]; omega

/-- The weights' block at every point is the whole array. -/
theorem iblk1_right (c : Dev nD) (t : Fin cfg1.N) :
    (iblk1 V c 2 t : S128x128.Idx → EReal) = (V c main_arg6 : S128x128.Idx → EReal) := by
  obtain ⟨-, -, -, -, e4, e5, -, -⟩ := idx1_facts t
  funext y
  unfold iblk1
  rw [View.read_apply]
  show V c main_arg6 _ = V c main_arg6 _
  congr 1
  funext a
  apply Fin.ext
  match a with
  | ⟨0, _⟩ => show win1_2.index t (0 : Fin 2) * 128 + 1 * (y 0).val = (y 0).val; rw [e4]; omega
  | ⟨1, _⟩ => show win1_2.index t (1 : Fin 2) * 128 + 1 * (y 1).val = (y 1).val; rw [e5]; omega

/-- What point t writes back is block t of the product of the whole rectified array and the weights. -/
theorem flushed1_eq (c : Dev nD) (t : Fin cfg1.N) :
    (dat1 V c).flushed 3 t = ((cfg1.win 3).blk t).view.read (Elt Ideal)
      (mm (M := 50000) (K := 128) (N := 128) (rowBiasRelu (M := 50000) (V c main_v39) (V c main_v40)) (V c main_arg6)) := by
  show (cfg1.win 3).cut (grid1.coords t) ((dat1 V c).after 3 t) = _
  rw [after1_3]
  unfold out1_3
  rw [View.canon_unit_zero hz1]
  simp only [View.ld_unit_zero (S := S2000x128) hz1, View.ld_unit_zero (S := S1x128) hz1, View.ld_unit_zero (S := S128x128) hz1]
  rw [pay1_eq]
  obtain ⟨-, -, -, -, -, -, e6, e7⟩ := idx1_facts t
  funext j
  show mm (M := 2000) (K := 128) (N := 128) (rowBiasRelu (M := 2000) (iblk1 V c 0 t) (iblk1 V c 1 t)) (iblk1 V c 2 t) j
    = mm (M := 50000) (K := 128) (N := 128) (rowBiasRelu (M := 50000) (V c main_v39) (V c main_v40)) (V c main_arg6)
        (((cfg1.win 3).blk t).view.emb j)
  rw [iblk1_bias V c t, iblk1_right V c t]
  have h0 : ((((cfg1.win 3).blk t).view.emb j : S50000x128.Idx) 0).val = t.val * 2000 + (j 0).val := by
    show win1_3.index t (0 : Fin 2) * 2000 + 1 * (j 0).val = _; rw [e6]; omega
  have h1 : ((((cfg1.win 3).blk t).view.emb j : S50000x128.Idx) 1).val = (j 1).val := by
    show win1_3.index t (1 : Fin 2) * 128 + 1 * (j 1).val = _; rw [e7]; omega
  refine mm_block_entry (M := 50000) (Mb := 2000) (K := 128) (N := 128) _ _ _ _ j (fun k => ?_) h1.symm
  show FloatOps.maximumf (F := Ideal) (φ := .f32) (FloatOps.addf (F := Ideal) (φ := .f32) ((iblk1 V c 0 t : S2000x128.Idx → EReal) (ix2 (j 0) k)) _) _
    = FloatOps.maximumf (F := Ideal) (φ := .f32) (FloatOps.addf (F := Ideal) (φ := .f32) ((V c main_v39 : S50000x128.Idx → EReal) (ix2 ((((cfg1.win 3).blk t).view.emb j : S50000x128.Idx) 0) k)) _) _
  rw [iblk1_left V c t (ix2 (j 0) k) (ix2 ((((cfg1.win 3).blk t).view.emb j : S50000x128.Idx) 0) k) h0 rfl]

/-- An index of the result array is in point t's block iff each coordinate is in the block's range. -/
theorem mem_blk1 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v41).slice (win1_3.rect t)).set ↔ _
  rw [View.set_slice_whole, Rect.mem_set_unit]
  exact Iff.rfl

/-- The 25 blocks of rows tile the result. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx1_onto ⟨(i 0).val / 2000, by omega⟩
  obtain ⟨-, -, -, -, -, -, e6, e7⟩ := idx1_facts t
  refine ⟨t, flush1_3 t, ?_⟩
  rw [mem_blk1]
  intro a
  have ht' : t.val = (i 0).val / 2000 := ht
  match a with
  | ⟨0, _⟩ => show win1_3.index t (0 : Fin 2) * 2000 ≤ (i 0).val ∧ (i 0).val < win1_3.index t (0 : Fin 2) * 2000 + 2000; rw [e6]; omega
  | ⟨1, _⟩ => show win1_3.index t (1 : Fin 2) * 128 ≤ (i 1).val ∧ (i 1).val < win1_3.index t (1 : Fin 2) * 128 + 128; rw [e7]; omega

/-- After the launch the result array holds the product of the rectified aggregate and the weights, as the launch found
    them. -/
theorem final1 (c : Dev nD) :
    (dat1 V c).arrAt 3 cfg1.N
      = mm (M := 50000) (K := 128) (N := 128) (rowBiasRelu (M := 50000) (V c main_v39) (V c main_v40)) (V c main_arg6) :=
  (dat1 V c).arrAt_eq_of_cover 3 _ (fun t _ => flushed1_eq V c t) cover1

end Cert.KernelIdeal.Hand

end
-- ==== Proof.Region2.lean ====
/-
  The third launch: max (a + b) 0 · W, computed block of rows by block of rows.

  The grid has 25 points.  Point t stages rows 2000·t … 2000·t + 1999 of the aggregate, the bias as a one-row array and the
  whole weight array; adds the bias to every row of the block, takes the maximum with zero, multiplies by the weights on
  the matrix unit into a zero accumulator, and writes the 2000 × 128 product back as the same rows of the result.  The
  bias and the rectifier act on each entry by itself and entry (r, c) of a product depends on row r of the left operand
  only, so what point t writes back is block t of the one product of the whole rectified array; the 25 blocks tile the
  50000 rows.
-/
import proofs.«136418_j1666447311245_1_alg».proof.Proof.Gen.KernelIdeal.Frame
import proofs.«136418_j1666447311245_1_alg».proof.Proof.LibRowBlocks
import proofs.«136418_j1666447311245_1_alg».proof.Proof.RowForms
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.PlainDot Idealize.ShloMosaic.RowBlocks

variable (V : (c : Dev nD) → (b : Ref sig .tc) → Buf (Elt Ideal) ((c : Thread nD τ).loc b))

theorem hz2 : (![0, 0] : Fin 2 → Nat) = fun _ => 0 := funext fun a => by fin_cases a <;> rfl

/-- The body's value: the textbook product of the rectified block and the staged weights. -/
theorem pay2_eq (x0 : Vec Ideal S2000x128 .f32) (x2 : Vec Ideal S1x128 .f32) (x8 : Vec Ideal S128x128 .f32) :
    k2_pay1 x0 x2 x8 = mm (M := 2000) (K := 128) (N := 128) (rowBiasRelu (M := 2000) x0 x2) x8 := by
  unfold k2_pay1
  exact (matmul_zero_eq_mm (M := 2000) (K := 128) (N := 128) none _ x8).trans
    (congrArg (fun A => mm (M := 2000) (K := 128) (N := 128) A x8) (body_biasRelu x0 x2))

/-- The windows' block indices over the grid: the aggregate and the result move down by one block of rows per point,
    the bias row and the weights stay. -/
theorem idx2_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every block of rows of the result is some point's. -/
theorem idx2_onto : ∀ q : Fin 25, ∃ t : Fin cfg2.N, t.val = q.val :=
  (by decide +kernel : ∀ q : Fin 25, ∃ t : Fin grid2.N, t.val = q.val)

/-- The aggregate's block at point t is rows 2000·t … of the array. -/
theorem iblk2_left (c : Dev nD) (t : Fin cfg2.N) (y : S2000x128.Idx) (k : S50000x128.Idx)
    (hk0 : (k 0).val = t.val * 2000 + (y 0).val) (hk1 : (k 1).val = (y 1).val) :
    (iblk2 V c 0 t : S2000x128.Idx → EReal) y = (V c main_v54 : S50000x128.Idx → EReal) k := by
  obtain ⟨e0, e1, -, -, -, -, -, -⟩ := idx2_facts t
  unfold iblk2
  rw [View.read_apply]
  show V c main_v54 _ = V c main_v54 _
  congr 1
  funext a
  apply Fin.ext
  match a with
  | ⟨0, _⟩ => show win2_0.index t (0 : Fin 2) * 2000 + 1 * (y 0).val = (k 0).val; rw [e0, hk0]; omega
  | ⟨1, _⟩ => show win2_0.index t (1 : Fin 2) * 128 + 1 * (y 1).val = (k 1).val; rw [e1, hk1]; omega

/-- The bias row's block at every point is the whole one-row array. -/
theorem iblk2_bias (c : Dev nD) (t : Fin cfg2.N) :
    (iblk2 V c 1 t : S1x128.Idx → EReal) = (V c main_v55 : S1x128.Idx → EReal) := by
  obtain ⟨-, -, e2, e3, -, -, -, -⟩ := idx2_facts t
  funext y
  unfold iblk2
  rw [View.read_apply]
  show V c main_v55 _ = V c main_v55 _
  congr 1
  funext a
  apply Fin.ext
  match a with
  | ⟨0, _⟩ => show win2_1.index t (0 : Fin 2) * 1 + 1 * (y 0).val = (y 0).val; rw [e2]; omega
  | ⟨1, _⟩ => show win2_1.index t (1 : Fin 2) * 128 + 1 * (y 1).val = (y 1).val; rw [e3]; omega

/-- The weights' block at every point is the whole array. -/
theorem iblk2_right (c : Dev nD) (t : Fin cfg2.N) :
    (iblk2 V c 2 t : S128x128.Idx → EReal) = (V c main_arg8 : S128x128.Idx → EReal) := by
  obtain ⟨-, -, -, -, e4, e5, -, -⟩ := idx2_facts t
  funext y
  unfold iblk2
  rw [View.read_apply]
  show V c main_arg8 _ = V c main_arg8 _
  congr 1
  funext a
  apply Fin.ext
  match a with
  | ⟨0, _⟩ => show win2_2.index t (0 : Fin 2) * 128 + 1 * (y 0).val = (y 0).val; rw [e4]; omega
  | ⟨1, _⟩ => show win2_2.index t (1 : Fin 2) * 128 + 1 * (y 1).val = (y 1).val; rw [e5]; omega

/-- What point t writes back is block t of the product of the whole rectified array and the weights. -/
theorem flushed2_eq (c : Dev nD) (t : Fin cfg2.N) :
    (dat2 V c).flushed 3 t = ((cfg2.win 3).blk t).view.read (Elt Ideal)
      (mm (M := 50000) (K := 128) (N := 128) (rowBiasRelu (M := 50000) (V c main_v54) (V c main_v55)) (V c main_arg8)) := by
  show (cfg2.win 3).cut (grid2.coords t) ((dat2 V c).after 3 t) = _
  rw [after2_3]
  unfold out2_3
  rw [View.canon_unit_zero hz2]
  simp only [View.ld_unit_zero (S := S2000x128) hz2, View.ld_unit_zero (S := S1x128) hz2, View.ld_unit_zero (S := S128x128) hz2]
  rw [pay2_eq]
  obtain ⟨-, -, -, -, -, -, e6, e7⟩ := idx2_facts t
  funext j
  show mm (M := 2000) (K := 128) (N := 128) (rowBiasRelu (M := 2000) (iblk2 V c 0 t) (iblk2 V c 1 t)) (iblk2 V c 2 t) j
    = mm (M := 50000) (K := 128) (N := 128) (rowBiasRelu (M := 50000) (V c main_v54) (V c main_v55)) (V c main_arg8)
        (((cfg2.win 3).blk t).view.emb j)
  rw [iblk2_bias V c t, iblk2_right V c t]
  have h0 : ((((cfg2.win 3).blk t).view.emb j : S50000x128.Idx) 0).val = t.val * 2000 + (j 0).val := by
    show win2_3.index t (0 : Fin 2) * 2000 + 1 * (j 0).val = _; rw [e6]; omega
  have h1 : ((((cfg2.win 3).blk t).view.emb j : S50000x128.Idx) 1).val = (j 1).val := by
    show win2_3.index t (1 : Fin 2) * 128 + 1 * (j 1).val = _; rw [e7]; omega
  refine mm_block_entry (M := 50000) (Mb := 2000) (K := 128) (N := 128) _ _ _ _ j (fun k => ?_) h1.symm
  show FloatOps.maximumf (F := Ideal) (φ := .f32) (FloatOps.addf (F := Ideal) (φ := .f32) ((iblk2 V c 0 t : S2000x128.Idx → EReal) (ix2 (j 0) k)) _) _
    = FloatOps.maximumf (F := Ideal) (φ := .f32) (FloatOps.addf (F := Ideal) (φ := .f32) ((V c main_v54 : S50000x128.Idx → EReal) (ix2 ((((cfg2.win 3).blk t).view.emb j : S50000x128.Idx) 0) k)) _) _
  rw [iblk2_left V c t (ix2 (j 0) k) (ix2 ((((cfg2.win 3).blk t).view.emb j : S50000x128.Idx) 0) k) h0 rfl]

/-- An index of the result array is in point t's block iff each coordinate is in the block's range. -/
theorem mem_blk2 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v56).slice (win2_3.rect t)).set ↔ _
  rw [View.set_slice_whole, Rect.mem_set_unit]
  exact Iff.rfl

/-- The 25 blocks of rows tile the result. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := idx2_onto ⟨(i 0).val / 2000, by omega⟩
  obtain ⟨-, -, -, -, -, -, e6, e7⟩ := idx2_facts t
  refine ⟨t, flush2_3 t, ?_⟩
  rw [mem_blk2]
  intro a
  have ht' : t.val = (i 0).val / 2000 := ht
  match a with
  | ⟨0, _⟩ => show win2_3.index t (0 : Fin 2) * 2000 ≤ (i 0).val ∧ (i 0).val < win2_3.index t (0 : Fin 2) * 2000 + 2000; rw [e6]; omega
  | ⟨1, _⟩ => show win2_3.index t (1 : Fin 2) * 128 ≤ (i 1).val ∧ (i 1).val < win2_3.index t (1 : Fin 2) * 128 + 128; rw [e7]; omega

/-- After the launch the result array holds the product of the rectified aggregate and the weights, as the launch found
    them. -/
theorem final2 (c : Dev nD) :
    (dat2 V c).arrAt 3 cfg2.N
      = mm (M := 50000) (K := 128) (N := 128) (rowBiasRelu (M := 50000) (V c main_v54) (V c main_v55)) (V c main_arg8) :=
  (dat2 V c).arrAt_eq_of_cover 3 _ (fun t _ => flushed2_eq V c t) cover2

end Cert.KernelIdeal.Hand

end
-- ==== Proof.Region3.lean ====
/-
  The fourth launch: pooled · W_l + b_l, at its one grid point.

  Every window's block is its whole array.  The body multiplies the 64 × 128 pooled rows by the 128 × 10 weights on the
  matrix unit into a zero accumulator, adds the bias, handed over as a one-row array, to every row, and writes the
  64 × 10 result back whole.
-/
import proofs.«136418_j1666447311245_1_alg».proof.Proof.Gen.KernelIdeal.Frame
import proofs.«136418_j1666447311245_1_alg».proof.Proof.LibPlainDot
import proofs.«136418_j1666447311245_1_alg».proof.Proof.RowForms
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.PlainDot

variable (V : (c : Dev nD) → (b : Ref sig .tc) → Buf (Elt Ideal) ((c : Thread nD τ).loc b))

theorem hz3 : (![0, 0] : Fin 2 → Nat) = fun _ => 0 := funext fun a => by fin_cases a <;> rfl

/-- The body's value: the textbook product of the staged operands with the bias row added to every row. -/
theorem pay3_eq (x0 : Vec Ideal S64x128 .f32) (x2 : Vec Ideal S128x10 .f32) (x4 : Vec Ideal S1x10 .f32) :
    k3_pay1 x0 x2 x4 = rowAdd (M := 64) (N := 10) (mm (M := 64) (K := 128) (N := 10) x0 x2) x4 := by
  unfold k3_pay1
  show addf (F := Ideal)
      (matmul (F := Ideal) dot_S64x128_S128x10_S64x10_1_0_0_1_n_n none
        (shapeCast S64x128 (x0 : S64x128.Idx → EReal) Facts₀.shapeCasts_S64x128_S64x128) x2 (constant S64x10 .f32 0x00000000#32))
      (broadcastTo S64x10 (shapeCast S1x10 (x4 : S1x10.Idx → EReal) Facts₀.shapeCasts_S1x10_S1x10) Facts₀.broadcasts_S1x10_S64x10) = _
  rw [shapeCast_self (x0 : S64x128.Idx → EReal)]
  rw [show matmul (F := Ideal) dot_S64x128_S128x10_S64x10_1_0_0_1_n_n none (x0 : S64x128.Idx → EReal) x2 (constant S64x10 .f32 0x00000000#32)
      = mm (M := 64) (K := 128) (N := 10) x0 x2 from matmul_zero_eq_mm (M := 64) (K := 128) (N := 10) none x0 x2]
  exact body_rowAdd _ x4

/-- Every window sits at block (0, 0) at the one point. -/
theorem idx3_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The pooled rows' block is the whole array. -/
theorem iblk3_left (c : Dev nD) (t : Fin cfg3.N) :
    (iblk3 V c 0 t : S64x128.Idx → EReal) = (V c main_v84 : S64x128.Idx → EReal) := by
  obtain ⟨e0, e1, -, -, -, -, -, -⟩ := idx3_facts t
  funext y
  unfold iblk3
  rw [View.read_apply]
  show V c main_v84 _ = V c main_v84 _
  congr 1
  funext a
  apply Fin.ext
  match a with
  | ⟨0, _⟩ => show win3_0.index t (0 : Fin 2) * 64 + 1 * (y 0).val = (y 0).val; rw [e0]; omega
  | ⟨1, _⟩ => show win3_0.index t (1 : Fin 2) * 128 + 1 * (y 1).val = (y 1).val; rw [e1]; omega

/-- The weights' block is the whole array. -/
theorem iblk3_right (c : Dev nD) (t : Fin cfg3.N) :
    (iblk3 V c 1 t : S128x10.Idx → EReal) = (V c main_arg10 : S128x10.Idx → EReal) := by
  obtain ⟨-, -, e2, e3, -, -, -, -⟩ := idx3_facts t
  funext y
  unfold iblk3
  rw [View.read_apply]
  show V c main_arg10 _ = V c main_arg10 _
  congr 1
  funext a
  apply Fin.ext
  match a with
  | ⟨0, _⟩ => show win3_1.index t (0 : Fin 2) * 128 + 1 * (y 0).val = (y 0).val; rw [e2]; omega
  | ⟨1, _⟩ => show win3_1.index t (1 : Fin 2) * 10 + 1 * (y 1).val = (y 1).val; rw [e3]; omega

/-- The bias row's block is the whole one-row array. -/
theorem iblk3_bias (c : Dev nD) (t : Fin cfg3.N) :
    (iblk3 V c 2 t : S1x10.Idx → EReal) = (V c main_v85 : S1x10.Idx → EReal) := by
  obtain ⟨-, -, -, -, e4, e5, -, -⟩ := idx3_facts t
  funext y
  unfold iblk3
  rw [View.read_apply]
  show V c main_v85 _ = V c main_v85 _
  congr 1
  funext a
  apply Fin.ext
  match a with
  | ⟨0, _⟩ => show win3_2.index t (0 : Fin 2) * 1 + 1 * (y 0).val = (y 0).val; rw [e4]; omega
  | ⟨1, _⟩ => show win3_2.index t (1 : Fin 2) * 10 + 1 * (y 1).val = (y 1).val; rw [e5]; omega

/-- What the one point writes back is the whole result. -/
theorem flushed3_eq (c : Dev nD) (t : Fin cfg3.N) :
    (dat3 V c).flushed 3 t = ((cfg3.win 3).blk t).view.read (Elt Ideal)
      (rowAdd (M := 64) (N := 10) (mm (M := 64) (K := 128) (N := 10) (V c main_v84) (V c main_arg10)) (V c main_v85)) := by
  show (cfg3.win 3).cut (grid3.coords t) ((dat3 V c).after 3 t) = _
  rw [after3_3]
  unfold out3_3
  rw [View.canon_unit_zero hz3]
  simp only [View.ld_unit_zero (S := S64x128) hz3, View.ld_unit_zero (S := S128x10) hz3, View.ld_unit_zero (S := S1x10) hz3]
  rw [pay3_eq]
  obtain ⟨-, -, -, -, -, -, e6, e7⟩ := idx3_facts t
  funext j
  show rowAdd (M := 64) (N := 10) (mm (M := 64) (K := 128) (N := 10) (iblk3 V c 0 t) (iblk3 V c 1 t)) (iblk3 V c 2 t) j
    = rowAdd (M := 64) (N := 10) (mm (M := 64) (K := 128) (N := 10) (V c main_v84) (V c main_arg10)) (V c main_v85)
        (((cfg3.win 3).blk t).view.emb j)
  rw [iblk3_left V c t, iblk3_right V c t, iblk3_bias V c t]
  refine congrArg _ ?_
  funext a
  apply Fin.ext
  match a with
  | ⟨0, _⟩ => show (j 0).val = win3_3.index t (0 : Fin 2) * 64 + 1 * (j 0).val; rw [e6]; omega
  | ⟨1, _⟩ => show (j 1).val = win3_3.index t (1 : Fin 2) * 10 + 1 * (j 1).val; rw [e7]; omega

/-- An index of the result array is in the one point's block iff each coordinate is in the block's range. -/
theorem mem_blk3 (t : Fin cfg3.N) (i : S64x10.Idx) :
    i ∈ ((cfg3.win 3).blk t).view.set ↔ ∀ a : Fin 2, win3_3.index t a * S64x10.size a ≤ (i a).val ∧ (i a).val < win3_3.index t a * S64x10.size a + S64x10.size a := by
  show i ∈ ((View.whole main_v86).slice (win3_3.rect t)).set ↔ _
  rw [View.set_slice_whole, Rect.mem_set_unit]
  exact Iff.rfl

/-- The one block is the whole result. -/
theorem cover3 (i : S64x10.Idx) : ∃ t : Fin cfg3.N, (cfg3.win 3).flush t = true ∧ i ∈ ((cfg3.win 3).blk t).view.set := by
  have hi0 : (i 0).val < 64 := (i 0).isLt
  have hi1 : (i 1).val < 10 := (i 1).isLt
  obtain ⟨-, -, -, -, -, -, e6, e7⟩ := idx3_facts t3_0
  refine ⟨t3_0, flush3_3 t3_0, ?_⟩
  rw [mem_blk3]
  intro a
  match a with
  | ⟨0, _⟩ => show win3_3.index t3_0 (0 : Fin 2) * 64 ≤ (i 0).val ∧ (i 0).val < win3_3.index t3_0 (0 : Fin 2) * 64 + 64; rw [e6]; omega
  | ⟨1, _⟩ => show win3_3.index t3_0 (1 : Fin 2) * 10 ≤ (i 1).val ∧ (i 1).val < win3_3.index t3_0 (1 : Fin 2) * 10 + 10; rw [e7]; omega

/-- After the launch the result array holds the product of the pooled rows and the weights with the bias row added. -/
theorem final3 (c : Dev nD) :
    (dat3 V c).arrAt 3 cfg3.N
      = rowAdd (M := 64) (N := 10) (mm (M := 64) (K := 128) (N := 10) (V c main_v84) (V c main_arg10)) (V c main_v85) :=
  (dat3 V c).arrAt_eq_of_cover 3 _ (fun t _ => flushed3_eq V c t) cover3

end Cert.KernelIdeal.Hand

end
-- ==== Proof.HostChains.lean ====
/-
  The host computations that the kernel's program and the reference share, each named once.

  A graph convolution layer normalises by degree.  With self loops appended to the edge lists (`withLoops`), the degree
  of a node is the number of edges that end at it (`degOf`: ones scattered onto zeros at the targets), its weight is the
  inverse square root of the degree where the degree is positive and zero elsewhere (`invSqrtDeg`), and an edge's
  weight is the product of its two ends' weights (`edgeNorm`).  A layer gathers the transformed rows at the edges'
  sources, scales each by its edge's weight and adds them up at the edges' targets (`aggregate`).  After the last
  layer a bias row is added, the rows are summed per graph and divided by the graph's node count, at least one
  (`meanPool`), and the logits go through log-softmax along the classes (`logSoftmax`).  A negative index counts from
  the end of the axis (`wrapIndex`).

  These are the operations both programs print, in the order they print them; nothing here is opened afterwards:
  the two programs are compared by the values that go into these functions.
-/
import proofs.«136418_j1666447311245_1_alg».proof.KernelIdeal
import proofs.«136418_j1666447311245_1_alg».proof.Proof.Gen.KernelIdeal

noncomputable section

namespace Cert.KernelIdeal.Hand

open Cert.KernelIdeal Cert.KernelIdeal.Facts₀ Cert.KernelIdeal.Facts Idealize.ShloMosaic

variable {F : FTy → Type} [FloatOps F]

/-- An edge list with one self loop per node appended. -/
def withLoops (e : (⟨S640000, .i32⟩ : BufTy).Contents (Elt F)) : (⟨S690000, .i32⟩ : BufTy).Contents (Elt F) :=
  concatenate S690000 0 [⟨S640000, e⟩, ⟨S50000, iotaInDim S50000 32 0⟩] concatenates_S640000_S50000_S690000_d0

/-- A node index below zero counts from the end of the node axis. -/
def wrapIndex (s : (⟨S690000, .i32⟩ : BufTy).Contents (Elt F)) : (⟨S690000, .i32⟩ : BufTy).Contents (Elt F) :=
  select (cmpi .slt s (broadcastInDim S690000 ![] bcast_S_S690000 (constantI S_ 32 0#32)))
    (addi s (broadcastInDim S690000 ![] bcast_S_S690000 (constantI S_ 32 50000#32))) s

/-- An index list as a one-column table of start indices. -/
def asColumn (s : (⟨S690000, .i32⟩ : BufTy).Contents (Elt F)) : (⟨S690000x1, .i32⟩ : BufTy).Contents (Elt F) :=
  broadcastInDim S690000x1 ![0] bcast_S690000_S690000x1_0 s

/-- The number of edges that end at each node. -/
def degOf (d : (⟨S690000, .i32⟩ : BufTy).Contents (Elt F)) : (⟨S50000, .f32⟩ : BufTy).Contents (Elt F) :=
  Host.scatterAdd scatter_S50000_S690000x1_S690000_n_0_0_1
    (broadcastInDim S50000 ![] bcast_S_S50000 (constant S_ .f32 0x00000000#32))
    (asColumn d)
    (broadcastInDim S690000 ![] bcast_S_S690000 (constant S_ .f32 0x3F800000#32))

/-- The inverse square root of a positive degree, zero elsewhere. -/
def invSqrtDeg (deg : (⟨S50000, .f32⟩ : BufTy).Contents (Elt F)) : (⟨S50000, .f32⟩ : BufTy).Contents (Elt F) :=
  select (cmpf .ogt deg (broadcastInDim S50000 ![] bcast_S_S50000 (constant S_ .f32 0x00000000#32)))
    (Host.rsqrt deg)
    (broadcastInDim S50000 ![] bcast_S_S50000 (id (constant S_ .f32 0x00000000#32)))

/-- An edge's weight: the product of its two ends' weights. -/
def edgeNorm (s d : (⟨S690000, .i32⟩ : BufTy).Contents (Elt F)) : (⟨S690000, .f32⟩ : BufTy).Contents (Elt F) :=
  mulf
    (Host.gather gather_S50000_S690000x1_S690000_n_0_n_n_0_1_1 (invSqrtDeg (degOf d)) (asColumn (wrapIndex s)))
    (Host.gather gather_S50000_S690000x1_S690000_n_0_n_n_0_1_1 (invSqrtDeg (degOf d)) (asColumn (wrapIndex d)))

/-- One layer's aggregation: the rows at the edges' sources, each scaled by its edge's weight, summed at the targets. -/
def aggregate (h : (⟨S50000x128, .f32⟩ : BufTy).Contents (Elt F)) (s d : (⟨S690000, .i32⟩ : BufTy).Contents (Elt F))
    (nrm : (⟨S690000, .f32⟩ : BufTy).Contents (Elt F)) : (⟨S50000x128, .f32⟩ : BufTy).Contents (Elt F) :=
  Host.scatterAdd scatter_S50000x128_S690000x1_S690000x128_1_0_0_1
    (broadcastInDim S50000x128 ![] bcast_S_S50000x128 (constant S_ .f32 0x00000000#32))
    (asColumn d)
    (mulf
      (Host.gather gather_S50000x128_S690000x1_S690000x128_1_0_n_n_0_1_1128 h (asColumn (wrapIndex s)))
      (broadcastInDim S690000x128 ![0, 1] bcast_S690000x1_S690000x128_0_1
        (broadcastInDim S690000x1 ![0] bcast_S690000_S690000x1_0 nrm)))

/-- The last layer's bias added, then the mean of each graph's rows (a graph with no node divides by one). -/
def meanPool (agg : (⟨S50000x128, .f32⟩ : BufTy).Contents (Elt F)) (b : (⟨S128, .f32⟩ : BufTy).Contents (Elt F))
    (batch : (⟨S50000, .i32⟩ : BufTy).Contents (Elt F)) : (⟨S64x128, .f32⟩ : BufTy).Contents (Elt F) :=
  Host.divf
    (Host.scatterAdd scatter_S64x128_S50000x1_S50000x128_1_0_0_1
      (broadcastInDim S64x128 ![] bcast_S_S64x128 (constant S_ .f32 0x00000000#32))
      (broadcastInDim S50000x1 ![0] bcast_S50000_S50000x1_0 batch)
      (addf agg (broadcastInDim S50000x128 ![0, 1] bcast_S1x128_S50000x128_0_1 (broadcastInDim S1x128 ![1] bcast_S128_S1x128_1 b))))
    (broadcastInDim S64x128 ![0, 1] bcast_S64x1_S64x128_0_1
      (broadcastInDim S64x1 ![0] bcast_S64_S64x1_0
        (maximumf
          (Host.scatterAdd scatter_S64_S50000x1_S50000_n_0_0_1
            (broadcastInDim S64 ![] bcast_S_S64 (constant S_ .f32 0x00000000#32))
            (broadcastInDim S50000x1 ![0] bcast_S50000_S50000x1_0 batch)
            (broadcastInDim S50000 ![] bcast_S_S50000 (constant S_ .f32 0x3F800000#32)))
          (broadcastInDim S64 ![] bcast_S_S64 (constant S_ .f32 0x3F800000#32)))))

/-- The logits with their row's maximum taken off. -/
def shifted (x : (⟨S64x10, .f32⟩ : BufTy).Contents (Elt F)) : (⟨S64x10, .f32⟩ : BufTy).Contents (Elt F) :=
  subf x
    (broadcastInDim S64x10 ![0, 1] bcast_S64x1_S64x10_0_1
      (broadcastInDim S64x1 ![0] bcast_S64_S64x1_0
        (maximumf (broadcastInDim S64 ![] bcast_S_S64 (constant S_ .f32 0xFF800000#32))
          (Host.reduce FloatOps.maximumf x (constant S_ .f32 0xFF800000#32) reducesTo_S64x10_S64_d1 h_S_))))

/-- Log-softmax along the classes: the shifted logits less the logarithm of the sum of their exponentials. -/
def logSoftmax (x : (⟨S64x10, .f32⟩ : BufTy).Contents (Elt F)) : (⟨S64x10, .f32⟩ : BufTy).Contents (Elt F) :=
  subf (shifted x)
    (broadcastInDim S64x10 ![0, 1] bcast_S64x1_S64x10_0_1
      (Host.log
        (broadcastInDim S64x1 ![0] bcast_S64_S64x1_0
          (Host.reduceAdd (Host.exp (shifted x)) (constant S_ .f32 0x00000000#32) reducesTo_S64x10_S64_d1 h_S_))))

end Cert.KernelIdeal.Hand

end
-- ==== Proof.Stretch0.lean ====
/-
  The host operations before the first launch.

  They append the self loops to the two edge lists and compute each edge's weight.  Read off the buffer contents at the
  first launch's entry: the two lists with loops and the edge weights are the shared host functions of the two edge
  lists as launched; the arguments are as launched.
-/
import proofs.«136418_j1666447311245_1_alg».proof.Proof.Gen.KernelIdeal.Frame
import proofs.«136418_j1666447311245_1_alg».proof.Proof.HostChains
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The source list with self loops, at the first launch's entry. -/
theorem entry0_src (c : Dev nD) :
    W3 m ρ c (Proc.devRef .tc main_v1) = withLoops (F := F) (m ((c : Thread nD τ).loc main_arg1)) := by
  show StableHlo.after hostOps0_2 (StableHlo.after hostOps0_1 (StableHlo.after hostOps0 (W0 m ρ c))) (Proc.devRef .tc main_v1) = _
  after_results_simp
  rfl

/-- The target list with self loops, at the first launch's entry. -/
theorem entry0_dst (c : Dev nD) :
    W3 m ρ c (Proc.devRef .tc main_v2) = withLoops (F := F) (m ((c : Thread nD τ).loc main_arg2)) := by
  show StableHlo.after hostOps0_2 (StableHlo.after hostOps0_1 (StableHlo.after hostOps0 (W0 m ρ c))) (Proc.devRef .tc main_v2) = _
  after_results_simp
  rfl

/-- The edge weights, at the first launch's entry. -/
theorem entry0_norm (c : Dev nD) :
    W3 m ρ c (Proc.devRef .tc main_v25)
      = edgeNorm (F := F) (withLoops (m ((c : Thread nD τ).loc main_arg1))) (withLoops (m ((c : Thread nD τ).loc main_arg2))) := by
  show StableHlo.after hostOps0_2 (StableHlo.after hostOps0_1 (StableHlo.after hostOps0 (W0 m ρ c))) (Proc.devRef .tc main_v25) = _
  after_results_simp
  rfl

end Cert.KernelIdeal.Hand

end
-- ==== Proof.Stretches.lean ====
/-
  The host operations after each launch.

  After the first, second and third launch the program aggregates the launch's result over the edges; after the third it
  also adds the last bias and pools the graphs; after the fourth it takes the log-softmax.  Each is read off the buffer
  contents at the next boundary as the shared host function of the contents at the boundary before; a bias vector is
  handed to a launch as a one-row array.
-/
import proofs.«136418_j1666447311245_1_alg».proof.Proof.Gen.KernelIdeal.Frame
import proofs.«136418_j1666447311245_1_alg».proof.Proof.HostChains
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The first aggregation, at the second launch's entry. -/
theorem entry1_agg (c : Dev nD) :
    W5 m ρ c (Proc.devRef .tc main_v39)
      = aggregate (F := F) (W4 m ρ c (Proc.devRef .tc main_v26)) (W4 m ρ c (Proc.devRef .tc main_v1))
          (W4 m ρ c (Proc.devRef .tc main_v2)) (W4 m ρ c (Proc.devRef .tc main_v25)) := by
  show StableHlo.after hostOps1 (W4 m ρ c) (Proc.devRef .tc main_v39) = _
  after_results_simp
  rfl

/-- The first bias as a one-row array, at the second launch's entry. -/
theorem entry1_bias (c : Dev nD) :
    W5 m ρ c (Proc.devRef .tc main_v40)
      = shapeCast S1x128 (W4 m ρ c (Proc.devRef .tc main_arg5)) Facts₀.shapeCasts_S128_S1x128 := by
  show StableHlo.after hostOps1 (W4 m ρ c) (Proc.devRef .tc main_v40) = _
  after_results_simp
  rfl

/-- The second aggregation, at the third launch's entry. -/
theorem entry2_agg (c : Dev nD) :
    W7 m ρ c (Proc.devRef .tc main_v54)
      = aggregate (F := F) (W6 m ρ c (Proc.devRef .tc main_v41)) (W6 m ρ c (Proc.devRef .tc main_v1))
          (W6 m ρ c (Proc.devRef .tc main_v2)) (W6 m ρ c (Proc.devRef .tc main_v25)) := by
  show StableHlo.after hostOps2 (W6 m ρ c) (Proc.devRef .tc main_v54) = _
  after_results_simp
  rfl

/-- The second bias as a one-row array, at the third launch's entry. -/
theorem entry2_bias (c : Dev nD) :
    W7 m ρ c (Proc.devRef .tc main_v55)
      = shapeCast S1x128 (W6 m ρ c (Proc.devRef .tc main_arg7)) Facts₀.shapeCasts_S128_S1x128 := by
  show StableHlo.after hostOps2 (W6 m ρ c) (Proc.devRef .tc main_v55) = _
  after_results_simp
  rfl

/-- The pooled rows, at the fourth launch's entry: the third aggregation, then the mean pool. -/
theorem entry3_pool (c : Dev nD) :
    W9 m ρ c (Proc.devRef .tc main_v84)
      = meanPool (F := F)
          (aggregate (F := F) (W8 m ρ c (Proc.devRef .tc main_v56)) (W8 m ρ c (Proc.devRef .tc main_v1))
            (W8 m ρ c (Proc.devRef .tc main_v2)) (W8 m ρ c (Proc.devRef .tc main_v25)))
          (W8 m ρ c (Proc.devRef .tc main_arg9)) (W8 m ρ c (Proc.devRef .tc main_arg3)) := by
  show StableHlo.after hostOps3 (W8 m ρ c) (Proc.devRef .tc main_v84) = _
  after_results_simp
  rfl

/-- The head's bias as a one-row array, at the fourth launch's entry. -/
theorem entry3_bias (c : Dev nD) :
    W9 m ρ c (Proc.devRef .tc main_v85)
      = shapeCast S1x10 (W8 m ρ c (Proc.devRef .tc main_arg11)) Facts₀.shapeCasts_S10_S1x10 := by
  show StableHlo.after hostOps3 (W8 m ρ c) (Proc.devRef .tc main_v85) = _
  after_results_simp
  rfl

/-- The result: the log-softmax of the fourth launch's result. -/
theorem exit_result (c : Dev nD) :
    W11 m ρ c (Proc.devRef .tc main_v87) = logSoftmax (F := F) (W10 m ρ c (Proc.devRef .tc main_v86)) := by
  show StableHlo.after hostOps4 (W10 m ρ c) (Proc.devRef .tc main_v87) = _
  after_results_simp
  rfl

end Cert.KernelIdeal.Hand

end
-- ==== Proof.Kept.lean ====
/-
  What no operation and no launch writes keeps its contents.

  The argument arrays are written by nothing: at every boundary of the program they hold their launch contents.  The two
  edge lists with self loops and the edge weights are written once, before the first launch, and read after every
  launch: from the first launch's entry on they hold what they held there.  A launch changes only its own arrays; a
  stretch of host operations only the buffers its operations write.
-/
import proofs.«136418_j1666447311245_1_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem

/-- A buffer that no operation of the named stretch writes holds after the stretch what it held before. -/
macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg)

section Steps
variable (b : Ref sig .tc) (c : Dev nD)

/-! One step each: a stretch of host operations that does not write `b`, a launch none of whose arrays is `b`. -/

theorem step1 (h : StableHlo.after hostOps0 (W0 m ρ c) (Proc.devRef .tc b) = W0 m ρ c (Proc.devRef .tc b)) :
    W1 m ρ c (Proc.devRef .tc b) = W0 m ρ c (Proc.devRef .tc b) := h
theorem step2 (h : StableHlo.after hostOps0_1 (W1 m ρ c) (Proc.devRef .tc b) = W1 m ρ c (Proc.devRef .tc b)) :
    W2 m ρ c (Proc.devRef .tc b) = W1 m ρ c (Proc.devRef .tc b) := h
theorem step3 (h : StableHlo.after hostOps0_2 (W2 m ρ c) (Proc.devRef .tc b) = W2 m ρ c (Proc.devRef .tc b)) :
    W3 m ρ c (Proc.devRef .tc b) = W2 m ρ c (Proc.devRef .tc b) := h
theorem step5 (h : StableHlo.after hostOps1 (W4 m ρ c) (Proc.devRef .tc b) = W4 m ρ c (Proc.devRef .tc b)) :
    W5 m ρ c (Proc.devRef .tc b) = W4 m ρ c (Proc.devRef .tc b) := h
theorem step7 (h : StableHlo.after hostOps2 (W6 m ρ c) (Proc.devRef .tc b) = W6 m ρ c (Proc.devRef .tc b)) :
    W7 m ρ c (Proc.devRef .tc b) = W6 m ρ c (Proc.devRef .tc b) := h
theorem step9 (h : StableHlo.after hostOps3 (W8 m ρ c) (Proc.devRef .tc b) = W8 m ρ c (Proc.devRef .tc b)) :
    W9 m ρ c (Proc.devRef .tc b) = W8 m ρ c (Proc.devRef .tc b) := h

end Steps

/-! ## The arguments, at the entry of the launch that reads them -/

theorem at3_arg0 (c : Dev nD) : W3 m ρ c (Proc.devRef .tc main_arg0) = m ((c : Thread nD τ).loc main_arg0) :=
  ((step3 m ρ main_arg0 c (by host_keeps hostOps0_2)).trans ((step2 m ρ main_arg0 c (by host_keeps hostOps0_1)).trans
    (step1 m ρ main_arg0 c (by host_keeps hostOps0)))).trans rfl
theorem at3_arg4 (c : Dev nD) : W3 m ρ c (Proc.devRef .tc main_arg4) = m ((c : Thread nD τ).loc main_arg4) :=
  ((step3 m ρ main_arg4 c (by host_keeps hostOps0_2)).trans ((step2 m ρ main_arg4 c (by host_keeps hostOps0_1)).trans
    (step1 m ρ main_arg4 c (by host_keeps hostOps0)))).trans rfl
theorem at3_arg5 (c : Dev nD) : W3 m ρ c (Proc.devRef .tc main_arg5) = m ((c : Thread nD τ).loc main_arg5) :=
  ((step3 m ρ main_arg5 c (by host_keeps hostOps0_2)).trans ((step2 m ρ main_arg5 c (by host_keeps hostOps0_1)).trans
    (step1 m ρ main_arg5 c (by host_keeps hostOps0)))).trans rfl
theorem at3_arg6 (c : Dev nD) : W3 m ρ c (Proc.devRef .tc main_arg6) = m ((c : Thread nD τ).loc main_arg6) :=
  ((step3 m ρ main_arg6 c (by host_keeps hostOps0_2)).trans ((step2 m ρ main_arg6 c (by host_keeps hostOps0_1)).trans
    (step1 m ρ main_arg6 c (by host_keeps hostOps0)))).trans rfl
theorem at3_arg7 (c : Dev nD) : W3 m ρ c (Proc.devRef .tc main_arg7) = m ((c : Thread nD τ).loc main_arg7) :=
  ((step3 m ρ main_arg7 c (by host_keeps hostOps0_2)).trans ((step2 m ρ main_arg7 c (by host_keeps hostOps0_1)).trans
    (step1 m ρ main_arg7 c (by host_keeps hostOps0)))).trans rfl
theorem at3_arg8 (c : Dev nD) : W3 m ρ c (Proc.devRef .tc main_arg8) = m ((c : Thread nD τ).loc main_arg8) :=
  ((step3 m ρ main_arg8 c (by host_keeps hostOps0_2)).trans ((step2 m ρ main_arg8 c (by host_keeps hostOps0_1)).trans
    (step1 m ρ main_arg8 c (by host_keeps hostOps0)))).trans rfl
theorem at3_arg9 (c : Dev nD) : W3 m ρ c (Proc.devRef .tc main_arg9) = m ((c : Thread nD τ).loc main_arg9) :=
  ((step3 m ρ main_arg9 c (by host_keeps hostOps0_2)).trans ((step2 m ρ main_arg9 c (by host_keeps hostOps0_1)).trans
    (step1 m ρ main_arg9 c (by host_keeps hostOps0)))).trans rfl
theorem at3_arg3 (c : Dev nD) : W3 m ρ c (Proc.devRef .tc main_arg3) = m ((c : Thread nD τ).loc main_arg3) :=
  ((step3 m ρ main_arg3 c (by host_keeps hostOps0_2)).trans ((step2 m ρ main_arg3 c (by host_keeps hostOps0_1)).trans
    (step1 m ρ main_arg3 c (by host_keeps hostOps0)))).trans rfl
theorem at3_arg10 (c : Dev nD) : W3 m ρ c (Proc.devRef .tc main_arg10) = m ((c : Thread nD τ).loc main_arg10) :=
  ((step3 m ρ main_arg10 c (by host_keeps hostOps0_2)).trans ((step2 m ρ main_arg10 c (by host_keeps hostOps0_1)).trans
    (step1 m ρ main_arg10 c (by host_keeps hostOps0)))).trans rfl
theorem at3_arg11 (c : Dev nD) : W3 m ρ c (Proc.devRef .tc main_arg11) = m ((c : Thread nD τ).loc main_arg11) :=
  ((step3 m ρ main_arg11 c (by host_keeps hostOps0_2)).trans ((step2 m ρ main_arg11 c (by host_keeps hostOps0_1)).trans
    (step1 m ρ main_arg11 c (by host_keeps hostOps0)))).trans rfl

/-! ## From the first launch's entry to the later boundaries -/

section Later
variable (b : Ref sig .tc) (c : Dev nD)

/-- Across the first launch and the stretch after it. -/
theorem to4 (h0 : ∀ w, Pipeline.arrRef spec0 w ≠ b) : W4 m ρ c (Proc.devRef .tc b) = W3 m ρ c (Proc.devRef .tc b) :=
  W4_of_ne m ρ c b h0
theorem to5 (h0 : ∀ w, Pipeline.arrRef spec0 w ≠ b)
    (h1 : StableHlo.after hostOps1 (W4 m ρ c) (Proc.devRef .tc b) = W4 m ρ c (Proc.devRef .tc b)) :
    W5 m ρ c (Proc.devRef .tc b) = W3 m ρ c (Proc.devRef .tc b) :=
  (step5 m ρ b c h1).trans (to4 m ρ b c h0)
theorem to6 (h0 : ∀ w, Pipeline.arrRef spec0 w ≠ b)
    (h1 : StableHlo.after hostOps1 (W4 m ρ c) (Proc.devRef .tc b) = W4 m ρ c (Proc.devRef .tc b))
    (h2 : ∀ w, Pipeline.arrRef spec1 w ≠ b) : W6 m ρ c (Proc.devRef .tc b) = W3 m ρ c (Proc.devRef .tc b) :=
  (W6_of_ne m ρ c b h2).trans (to5 m ρ b c h0 h1)
theorem to7 (h0 : ∀ w, Pipeline.arrRef spec0 w ≠ b)
    (h1 : StableHlo.after hostOps1 (W4 m ρ c) (Proc.devRef .tc b) = W4 m ρ c (Proc.devRef .tc b))
    (h2 : ∀ w, Pipeline.arrRef spec1 w ≠ b)
    (h3 : StableHlo.after hostOps2 (W6 m ρ c) (Proc.devRef .tc b) = W6 m ρ c (Proc.devRef .tc b)) :
    W7 m ρ c (Proc.devRef .tc b) = W3 m ρ c (Proc.devRef .tc b) :=
  (step7 m ρ b c h3).trans (to6 m ρ b c h0 h1 h2)
theorem to8 (h0 : ∀ w, Pipeline.arrRef spec0 w ≠ b)
    (h1 : StableHlo.after hostOps1 (W4 m ρ c) (Proc.devRef .tc b) = W4 m ρ c (Proc.devRef .tc b))
    (h2 : ∀ w, Pipeline.arrRef spec1 w ≠ b)
    (h3 : StableHlo.after hostOps2 (W6 m ρ c) (Proc.devRef .tc b) = W6 m ρ c (Proc.devRef .tc b))
    (h4 : ∀ w, Pipeline.arrRef spec2 w ≠ b) : W8 m ρ c (Proc.devRef .tc b) = W3 m ρ c (Proc.devRef .tc b) :=
  (W8_of_ne m ρ c b h4).trans (to7 m ρ b c h0 h1 h2 h3)
theorem to9 (h0 : ∀ w, Pipeline.arrRef spec0 w ≠ b)
    (h1 : StableHlo.after hostOps1 (W4 m ρ c) (Proc.devRef .tc b) = W4 m ρ c (Proc.devRef .tc b))
    (h2 : ∀ w, Pipeline.arrRef spec1 w ≠ b)
    (h3 : StableHlo.after hostOps2 (W6 m ρ c) (Proc.devRef .tc b) = W6 m ρ c (Proc.devRef .tc b))
    (h4 : ∀ w, Pipeline.arrRef spec2 w ≠ b)
    (h5 : StableHlo.after hostOps3 (W8 m ρ c) (Proc.devRef .tc b) = W8 m ρ c (Proc.devRef .tc b)) :
    W9 m ρ c (Proc.devRef .tc b) = W3 m ρ c (Proc.devRef .tc b) :=
  (step9 m ρ b c h5).trans (to8 m ρ b c h0 h1 h2 h3 h4)

end Later

end Cert.KernelIdeal.Hand

end
-- ==== Proof.Spec.lean ====
/-
  The network both programs compute, as one function of the twelve arguments.

  Three graph convolution layers, a mean pool over the graphs and a linear head under log-softmax:

    h₁ = x · W₁,                 a₁ = aggregate h₁
    h₂ = max (a₁ + b₁) 0 · W₂,   a₂ = aggregate h₂
    h₃ = max (a₂ + b₂) 0 · W₃,   a₃ = aggregate h₃
    out = logSoftmax (meanPool (a₃ + b₃) · W_l + b_l)

  with the same edge lists (self loops appended) and the same edge weights in all three aggregations.  The products are
  the textbook ones (entry (r, c) the sum over k of left (r, k) · right (k, c)), a bias is added to every row, and the
  rectifier is the maximum with zero, all on the extended reals.
-/
import proofs.«136418_j1666447311245_1_alg».proof.Proof.HostChains
import proofs.«136418_j1666447311245_1_alg».proof.Proof.LibPlainDot
import Idealize.ShloMosaic.Lib.ValueIdx

noncomputable section

namespace Cert.KernelIdeal.Hand

open Cert.KernelIdeal Idealize.ShloMosaic Idealize.ShloMosaic.PlainDot

/-- A layer's input: the bias added to every row of the aggregate, then the maximum with zero. -/
def biasRelu (A : (⟨2, ![50000, 128]⟩ : Shape).Idx → EReal) (b : (⟨1, ![128]⟩ : Shape).Idx → EReal) :
    (⟨2, ![50000, 128]⟩ : Shape).Idx → EReal :=
  fun i => FloatOps.maximumf (F := Ideal) (φ := .f32) (FloatOps.addf (F := Ideal) (φ := .f32) (A i) (b (ValueIdx.ix1 (⟨(i 1).val, (i 1).isLt⟩ : Fin 128))))
    (FloatOps.ofBits (F := Ideal) .f32 0x00000000#32)

/-- The head's bias added to every row of the logits. -/
def addRow (A : (⟨2, ![64, 10]⟩ : Shape).Idx → EReal) (b : (⟨1, ![10]⟩ : Shape).Idx → EReal) :
    (⟨2, ![64, 10]⟩ : Shape).Idx → EReal :=
  fun i => FloatOps.addf (F := Ideal) (φ := .f32) (A i) (b (ValueIdx.ix1 (⟨(i 1).val, (i 1).isLt⟩ : Fin 10)))

/-- The whole network on the extended reals. -/
def network (x : (⟨2, ![50000, 128]⟩ : Shape).Idx → EReal)
    (src dst : (⟨S640000, .i32⟩ : BufTy).Contents (Elt Ideal)) (batch : (⟨S50000, .i32⟩ : BufTy).Contents (Elt Ideal))
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (Wl : (⟨2, ![128, 10]⟩ : Shape).Idx → EReal) (bl : (⟨1, ![10]⟩ : Shape).Idx → EReal) :
    (⟨2, ![64, 10]⟩ : Shape).Idx → EReal :=
  let s := withLoops (F := Ideal) src
  let d := withLoops (F := Ideal) dst
  let n := edgeNorm (F := Ideal) s d
  let a1 := aggregate (F := Ideal) (mm (M := 50000) (K := 128) (N := 128) x W1) s d n
  let a2 := aggregate (F := Ideal) (mm (M := 50000) (K := 128) (N := 128) (biasRelu a1 b1) W2) s d n
  let a3 := aggregate (F := Ideal) (mm (M := 50000) (K := 128) (N := 128) (biasRelu a2 b2) W3) s d n
  logSoftmax (F := Ideal) (addRow (mm (M := 64) (K := 128) (N := 10) (meanPool (F := Ideal) a3 b3 batch) Wl) bl)

end Cert.KernelIdeal.Hand

end
-- ==== Proof.BiasRow.lean ====
/-
  A bias vector handed to a launch as a one-row array is the same bias.

  A vector [n] recast as [1, n] holds at (0, k) the vector's entry k, so adding the one-row array to every row of a
  matrix adds the vector to every row.
-/
import proofs.«136418_j1666447311245_1_alg».proof.Proof.RowForms
import proofs.«136418_j1666447311245_1_alg».proof.Proof.Spec
import proofs.«136418_j1666447311245_1_alg».proof.Proof.LibHostIdx

noncomputable section

namespace Cert.KernelIdeal.Hand

open Idealize.ShloMosaic Idealize.ShloMosaic.ValueIdx

/-- The rectified layer input, with the bias as a recast row. -/
theorem rowBiasRelu_cast (A : (⟨2, ![50000, 128]⟩ : Shape).Idx → EReal) (b : (⟨1, ![128]⟩ : Shape).Idx → EReal)
    (h : (⟨1, ![128]⟩ : Shape).ShapeCasts ⟨2, ![1, 128]⟩) :
    rowBiasRelu (M := 50000) A (shapeCast ⟨2, ![1, 128]⟩ b h) = biasRelu A b := by
  funext i
  unfold rowBiasRelu biasRelu
  rw [Cert.Lib.HostIdx.castRow_apply h b]

/-- The head's logits, with the bias as a recast row. -/
theorem rowAdd_cast (A : (⟨2, ![64, 10]⟩ : Shape).Idx → EReal) (b : (⟨1, ![10]⟩ : Shape).Idx → EReal)
    (h : (⟨1, ![10]⟩ : Shape).ShapeCasts ⟨2, ![1, 10]⟩) :
    rowAdd (M := 64) (N := 10) A (shapeCast ⟨2, ![1, 10]⟩ b h) = addRow A b := by
  funext i
  unfold rowAdd addRow
  rw [Cert.Lib.HostIdx.castRow_apply h b]

end Cert.KernelIdeal.Hand

end
-- ==== Proof.KernelValue.lean ====
/-
  The idealized kernel computes the network.

  Boundary by boundary from the launch memory: the host operations before the first launch leave the edge lists with self
  loops and the edge weights; each launch leaves its product, of the arrays it found; each stretch after a launch leaves
  the aggregation of that product, and the bias for the next launch as a one-row array; the stretch after the third also
  pools; the last takes the log-softmax.  Buffers nothing writes in between are carried along.  Composed, the result
  buffer at the last boundary holds the network of the twelve arguments as launched.
-/
import proofs.«136418_j1666447311245_1_alg».proof.Proof.Region0
import proofs.«136418_j1666447311245_1_alg».proof.Proof.Region1
import proofs.«136418_j1666447311245_1_alg».proof.Proof.Region2
import proofs.«136418_j1666447311245_1_alg».proof.Proof.Region3
import proofs.«136418_j1666447311245_1_alg».proof.Proof.Stretch0
import proofs.«136418_j1666447311245_1_alg».proof.Proof.Stretches
import proofs.«136418_j1666447311245_1_alg».proof.Proof.Kept
import proofs.«136418_j1666447311245_1_alg».proof.Proof.Spec
import proofs.«136418_j1666447311245_1_alg».proof.Proof.BiasRow

set_option maxRecDepth 16384

noncomputable section

namespace Cert.KernelIdeal.Hand

open Cert.KernelIdeal Cert.KernelIdeal.Gen
open Idealize.ShloMosaic Idealize.ShloMosaic.TcCoe Idealize.SL.Sem Idealize.ShloMosaic.PlainDot

variable (m : (ℓ : Loc nD τ sig) → Buf (Elt Ideal) ℓ) (ρ : Dev nD → PrngReg) (c : Dev nD)

/-! ## The layers' values, named -/

/-- The first layer's product and aggregation. -/
def lin1V : (⟨2, ![50000, 128]⟩ : Shape).Idx → EReal := (mm (M := 50000) (K := 128) (N := 128) (m ((c : Thread nD τ).loc main_arg0)) (m ((c : Thread nD τ).loc main_arg4)))
def agg1V : (⟨2, ![50000, 128]⟩ : Shape).Idx → EReal := aggregate (F := Ideal) (lin1V m c) (withLoops (F := Ideal) (m ((c : Thread nD τ).loc main_arg1))) (withLoops (F := Ideal) (m ((c : Thread nD τ).loc main_arg2))) (edgeNorm (F := Ideal) (withLoops (F := Ideal) (m ((c : Thread nD τ).loc main_arg1))) (withLoops (F := Ideal) (m ((c : Thread nD τ).loc main_arg2))))
/-- The second layer's. -/
def lin2V : (⟨2, ![50000, 128]⟩ : Shape).Idx → EReal := mm (M := 50000) (K := 128) (N := 128) (biasRelu (agg1V m c) (m ((c : Thread nD τ).loc main_arg5))) (m ((c : Thread nD τ).loc main_arg6))
def agg2V : (⟨2, ![50000, 128]⟩ : Shape).Idx → EReal := aggregate (F := Ideal) (lin2V m c) (withLoops (F := Ideal) (m ((c : Thread nD τ).loc main_arg1))) (withLoops (F := Ideal) (m ((c : Thread nD τ).loc main_arg2))) (edgeNorm (F := Ideal) (withLoops (F := Ideal) (m ((c : Thread nD τ).loc main_arg1))) (withLoops (F := Ideal) (m ((c : Thread nD τ).loc main_arg2))))
/-- The third layer's. -/
def lin3V : (⟨2, ![50000, 128]⟩ : Shape).Idx → EReal := mm (M := 50000) (K := 128) (N := 128) (biasRelu (agg2V m c) (m ((c : Thread nD τ).loc main_arg7))) (m ((c : Thread nD τ).loc main_arg8))
def agg3V : (⟨2, ![50000, 128]⟩ : Shape).Idx → EReal := aggregate (F := Ideal) (lin3V m c) (withLoops (F := Ideal) (m ((c : Thread nD τ).loc main_arg1))) (withLoops (F := Ideal) (m ((c : Thread nD τ).loc main_arg2))) (edgeNorm (F := Ideal) (withLoops (F := Ideal) (m ((c : Thread nD τ).loc main_arg1))) (withLoops (F := Ideal) (m ((c : Thread nD τ).loc main_arg2))))
/-- The pooled rows and the logits. -/
def pooledV : (⟨2, ![64, 128]⟩ : Shape).Idx → EReal := meanPool (F := Ideal) (agg3V m c) (m ((c : Thread nD τ).loc main_arg9)) (m ((c : Thread nD τ).loc main_arg3))
def logitsV : (⟨2, ![64, 10]⟩ : Shape).Idx → EReal := addRow (mm (M := 64) (K := 128) (N := 10) (pooledV m c) (m ((c : Thread nD τ).loc main_arg10))) (m ((c : Thread nD τ).loc main_arg11))

/-- The named values composed are the network. -/
theorem network_eq : logSoftmax (F := Ideal) (logitsV m c)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := rfl

/-! ## The edge lists and weights, carried to every boundary that reads them -/

theorem src_at4 : W4 m ρ c (Proc.devRef .tc main_v1) = (withLoops (F := Ideal) (m ((c : Thread nD τ).loc main_arg1))) :=
  (to4 m ρ main_v1 c (by decide)).trans (entry0_src m ρ c)
theorem dst_at4 : W4 m ρ c (Proc.devRef .tc main_v2) = (withLoops (F := Ideal) (m ((c : Thread nD τ).loc main_arg2))) :=
  (to4 m ρ main_v2 c (by decide)).trans (entry0_dst m ρ c)
theorem nrm_at4 : W4 m ρ c (Proc.devRef .tc main_v25) = (edgeNorm (F := Ideal) (withLoops (F := Ideal) (m ((c : Thread nD τ).loc main_arg1))) (withLoops (F := Ideal) (m ((c : Thread nD τ).loc main_arg2)))) :=
  (to4 m ρ main_v25 c (by decide)).trans (entry0_norm m ρ c)

theorem src_at6 : W6 m ρ c (Proc.devRef .tc main_v1) = (withLoops (F := Ideal) (m ((c : Thread nD τ).loc main_arg1))) :=
  (to6 m ρ main_v1 c (by decide) (by host_keeps hostOps1) (by decide)).trans (entry0_src m ρ c)
theorem dst_at6 : W6 m ρ c (Proc.devRef .tc main_v2) = (withLoops (F := Ideal) (m ((c : Thread nD τ).loc main_arg2))) :=
  (to6 m ρ main_v2 c (by decide) (by host_keeps hostOps1) (by decide)).trans (entry0_dst m ρ c)
theorem nrm_at6 : W6 m ρ c (Proc.devRef .tc main_v25) = (edgeNorm (F := Ideal) (withLoops (F := Ideal) (m ((c : Thread nD τ).loc main_arg1))) (withLoops (F := Ideal) (m ((c : Thread nD τ).loc main_arg2)))) :=
  (to6 m ρ main_v25 c (by decide) (by host_keeps hostOps1) (by decide)).trans (entry0_norm m ρ c)

theorem src_at8 : W8 m ρ c (Proc.devRef .tc main_v1) = (withLoops (F := Ideal) (m ((c : Thread nD τ).loc main_arg1))) :=
  (to8 m ρ main_v1 c (by decide) (by host_keeps hostOps1) (by decide) (by host_keeps hostOps2) (by decide)).trans (entry0_src m ρ c)
theorem dst_at8 : W8 m ρ c (Proc.devRef .tc main_v2) = (withLoops (F := Ideal) (m ((c : Thread nD τ).loc main_arg2))) :=
  (to8 m ρ main_v2 c (by decide) (by host_keeps hostOps1) (by decide) (by host_keeps hostOps2) (by decide)).trans (entry0_dst m ρ c)
theorem nrm_at8 : W8 m ρ c (Proc.devRef .tc main_v25) = (edgeNorm (F := Ideal) (withLoops (F := Ideal) (m ((c : Thread nD τ).loc main_arg1))) (withLoops (F := Ideal) (m ((c : Thread nD τ).loc main_arg2)))) :=
  (to8 m ρ main_v25 c (by decide) (by host_keeps hostOps1) (by decide) (by host_keeps hostOps2) (by decide)).trans (entry0_norm m ρ c)

/-! ## The arguments, at the boundary that reads them -/

theorem arg5_at4 : W4 m ρ c (Proc.devRef .tc main_arg5) = (m ((c : Thread nD τ).loc main_arg5)) :=
  (to4 m ρ main_arg5 c (by decide)).trans (at3_arg5 m ρ c)
theorem arg6_at5 : W5 m ρ c (Proc.devRef .tc main_arg6) = (m ((c : Thread nD τ).loc main_arg6)) :=
  (to5 m ρ main_arg6 c (by decide) (by host_keeps hostOps1)).trans (at3_arg6 m ρ c)
theorem arg7_at6 : W6 m ρ c (Proc.devRef .tc main_arg7) = (m ((c : Thread nD τ).loc main_arg7)) :=
  (to6 m ρ main_arg7 c (by decide) (by host_keeps hostOps1) (by decide)).trans (at3_arg7 m ρ c)
theorem arg8_at7 : W7 m ρ c (Proc.devRef .tc main_arg8) = (m ((c : Thread nD τ).loc main_arg8)) :=
  (to7 m ρ main_arg8 c (by decide) (by host_keeps hostOps1) (by decide) (by host_keeps hostOps2)).trans (at3_arg8 m ρ c)
theorem arg9_at8 : W8 m ρ c (Proc.devRef .tc main_arg9) = (m ((c : Thread nD τ).loc main_arg9)) :=
  (to8 m ρ main_arg9 c (by decide) (by host_keeps hostOps1) (by decide) (by host_keeps hostOps2) (by decide)).trans (at3_arg9 m ρ c)
theorem arg3_at8 : W8 m ρ c (Proc.devRef .tc main_arg3) = (m ((c : Thread nD τ).loc main_arg3)) :=
  (to8 m ρ main_arg3 c (by decide) (by host_keeps hostOps1) (by decide) (by host_keeps hostOps2) (by decide)).trans (at3_arg3 m ρ c)
theorem arg11_at8 : W8 m ρ c (Proc.devRef .tc main_arg11) = (m ((c : Thread nD τ).loc main_arg11)) :=
  (to8 m ρ main_arg11 c (by decide) (by host_keeps hostOps1) (by decide) (by host_keeps hostOps2) (by decide)).trans (at3_arg11 m ρ c)
theorem arg10_at9 : W9 m ρ c (Proc.devRef .tc main_arg10) = (m ((c : Thread nD τ).loc main_arg10)) :=
  (to9 m ρ main_arg10 c (by decide) (by host_keeps hostOps1) (by decide) (by host_keeps hostOps2) (by decide) (by host_keeps hostOps3)).trans (at3_arg10 m ρ c)

/-! ## Layer by layer -/

/-- After the first launch: the first product. -/
theorem lin1_at4 : W4 m ρ c (Proc.devRef .tc main_v26) = lin1V m c := by
  refine (W4_arr m ρ c 2).trans ((final0 (V3 m ρ) c).trans ?_)
  show mm (M := 50000) (K := 128) (N := 128) (W3 m ρ c (Proc.devRef .tc main_arg0)) (W3 m ρ c (Proc.devRef .tc main_arg4)) = _
  rw [at3_arg0 m ρ c, at3_arg4 m ρ c]
  rfl

/-- At the second launch's entry: the first aggregation and the first bias as a row. -/
theorem agg1_at5 : W5 m ρ c (Proc.devRef .tc main_v39) = agg1V m c := by
  rw [entry1_agg m ρ c, lin1_at4 m ρ c, src_at4 m ρ c, dst_at4 m ρ c, nrm_at4 m ρ c]
  rfl
theorem bias1_at5 : W5 m ρ c (Proc.devRef .tc main_v40) = shapeCast S1x128 (m ((c : Thread nD τ).loc main_arg5)) Facts₀.shapeCasts_S128_S1x128 := by
  rw [entry1_bias m ρ c, arg5_at4 m ρ c]

/-- After the second launch: the second product. -/
theorem lin2_at6 : W6 m ρ c (Proc.devRef .tc main_v41) = lin2V m c := by
  refine (W6_arr m ρ c 3).trans ((final1 (V5 m ρ) c).trans ?_)
  show mm (M := 50000) (K := 128) (N := 128)
      (rowBiasRelu (M := 50000) (W5 m ρ c (Proc.devRef .tc main_v39)) (W5 m ρ c (Proc.devRef .tc main_v40)))
      (W5 m ρ c (Proc.devRef .tc main_arg6)) = _
  rw [agg1_at5 m ρ c, bias1_at5 m ρ c, arg6_at5 m ρ c, rowBiasRelu_cast]
  rfl

/-- At the third launch's entry: the second aggregation and the second bias as a row. -/
theorem agg2_at7 : W7 m ρ c (Proc.devRef .tc main_v54) = agg2V m c := by
  rw [entry2_agg m ρ c, lin2_at6 m ρ c, src_at6 m ρ c, dst_at6 m ρ c, nrm_at6 m ρ c]
  rfl
theorem bias2_at7 : W7 m ρ c (Proc.devRef .tc main_v55) = shapeCast S1x128 (m ((c : Thread nD τ).loc main_arg7)) Facts₀.shapeCasts_S128_S1x128 := by
  rw [entry2_bias m ρ c, arg7_at6 m ρ c]

/-- After the third launch: the third product. -/
theorem lin3_at8 : W8 m ρ c (Proc.devRef .tc main_v56) = lin3V m c := by
  refine (W8_arr m ρ c 3).trans ((final2 (V7 m ρ) c).trans ?_)
  show mm (M := 50000) (K := 128) (N := 128)
      (rowBiasRelu (M := 50000) (W7 m ρ c (Proc.devRef .tc main_v54)) (W7 m ρ c (Proc.devRef .tc main_v55)))
      (W7 m ρ c (Proc.devRef .tc main_arg8)) = _
  rw [agg2_at7 m ρ c, bias2_at7 m ρ c, arg8_at7 m ρ c, rowBiasRelu_cast]
  rfl

/-- At the fourth launch's entry: the pooled rows and the head's bias as a row. -/
theorem pooled_at9 : W9 m ρ c (Proc.devRef .tc main_v84) = pooledV m c := by
  rw [entry3_pool m ρ c, lin3_at8 m ρ c, src_at8 m ρ c, dst_at8 m ρ c, nrm_at8 m ρ c, arg9_at8 m ρ c, arg3_at8 m ρ c]
  rfl
theorem bias3_at9 : W9 m ρ c (Proc.devRef .tc main_v85) = shapeCast S1x10 (m ((c : Thread nD τ).loc main_arg11)) Facts₀.shapeCasts_S10_S1x10 := by
  rw [entry3_bias m ρ c, arg11_at8 m ρ c]

/-- After the fourth launch: the logits. -/
theorem logits_at10 : W10 m ρ c (Proc.devRef .tc main_v86) = logitsV m c := by
  refine (W10_arr m ρ c 3).trans ((final3 (V9 m ρ) c).trans ?_)
  show rowAdd (M := 64) (N := 10)
      (mm (M := 64) (K := 128) (N := 10) (W9 m ρ c (Proc.devRef .tc main_v84)) (W9 m ρ c (Proc.devRef .tc main_arg10)))
      (W9 m ρ c (Proc.devRef .tc main_v85)) = _
  rw [pooled_at9 m ρ c, bias3_at9 m ρ c, arg10_at9 m ρ c, rowAdd_cast]
  rfl

/-- The result buffer at the last boundary holds the network of the arguments as launched. -/
theorem result_is_network : W11 m ρ c (Proc.devRef .tc main_v87)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [exit_result m ρ c, logits_at10 m ρ c]
  exact network_eq m c

end Cert.KernelIdeal.Hand

end
-- ==== Proof.RefChains.lean ====
/-
  The reference, stage by stage, is the network.

  The reference recomputes the edge lists with self loops and the edge weights in each of its three layers; the three
  copies are the same operations on the same two arguments.  Each layer's aggregation, the mean pool and the log-softmax
  are the shared host functions of the stage before; each dense product is the textbook one; and between two layers the
  bias is added to every row and the maximum with zero taken.
-/
import proofs.«136418_j1666447311245_1_alg».proof.Proof.GenRefRead
import proofs.«136418_j1666447311245_1_alg».proof.Proof.Spec

set_option maxRecDepth 16384

noncomputable section

namespace Cert.Bridge

open Cert.ReferenceIdeal Cert.ReferenceIdeal.Read Cert.KernelIdeal.Hand
open Idealize.ShloMosaic Idealize.ShloMosaic.PlainDot

section Shared

variable {F : FTy → Type} [FloatOps F]
variable (x0 : (⟨S50000x128, .f32⟩ : BufTy).Contents (Elt F)) (x1 x2 : (⟨S640000, .i32⟩ : BufTy).Contents (Elt F))
  (x3 : (⟨S50000, .i32⟩ : BufTy).Contents (Elt F)) (x4 : (⟨S128x128, .f32⟩ : BufTy).Contents (Elt F))
  (x5 : (⟨S128, .f32⟩ : BufTy).Contents (Elt F)) (x6 : (⟨S128x128, .f32⟩ : BufTy).Contents (Elt F))
  (x7 : (⟨S128, .f32⟩ : BufTy).Contents (Elt F)) (x8 : (⟨S128x128, .f32⟩ : BufTy).Contents (Elt F))
  (x9 : (⟨S128, .f32⟩ : BufTy).Contents (Elt F)) (x10 : (⟨S128x10, .f32⟩ : BufTy).Contents (Elt F))
  (x11 : (⟨S10, .f32⟩ : BufTy).Contents (Elt F))

/-- The edge lists with self loops: the three copies. -/
theorem src1 : val_main_v1 (F := F) x1 = withLoops x1 := rfl
theorem dst1 : val_main_v2 (F := F) x2 = withLoops x2 := rfl
theorem src2 : val_main_v45 (F := F) x1 = withLoops x1 := rfl
theorem dst2 : val_main_v46 (F := F) x2 = withLoops x2 := rfl
theorem src3 : val_main_v89 (F := F) x1 = withLoops x1 := rfl
theorem dst3 : val_main_v90 (F := F) x2 = withLoops x2 := rfl

/-- The edge weights: the three copies. -/
theorem norm1 : val_main_v25 (F := F) x1 x2 = edgeNorm (withLoops x1) (withLoops x2) := rfl
theorem norm2 : val_main_v69 (F := F) x1 x2 = edgeNorm (withLoops x1) (withLoops x2) := rfl
theorem norm3 : val_main_v113 (F := F) x1 x2 = edgeNorm (withLoops x1) (withLoops x2) := rfl

/-- The three aggregations. -/
theorem agg1 : val_main_v39 (F := F) x0 x1 x2 x4
    = aggregate (val_main_v26 (F := F) x0 x4) (withLoops x1) (withLoops x2) (edgeNorm (withLoops x1) (withLoops x2)) := rfl
theorem agg2 : val_main_v83 (F := F) x0 x1 x2 x4 x5 x6
    = aggregate (val_main_v70 (F := F) x0 x1 x2 x4 x5 x6) (withLoops x1) (withLoops x2) (edgeNorm (withLoops x1) (withLoops x2)) := rfl
theorem agg3 : val_main_v127 (F := F) x0 x1 x2 x4 x5 x6 x7 x8
    = aggregate (val_main_v114 (F := F) x0 x1 x2 x4 x5 x6 x7 x8) (withLoops x1) (withLoops x2) (edgeNorm (withLoops x1) (withLoops x2)) := rfl

/-- The mean pool and the log-softmax. -/
theorem pool : val_main_v142 (F := F) x0 x1 x2 x3 x4 x5 x6 x7 x8 x9
    = meanPool (val_main_v127 (F := F) x0 x1 x2 x4 x5 x6 x7 x8) x9 x3 := rfl
theorem lsm : val_main_v147 (F := F) x0 x1 x2 x3 x4 x5 x6 x7 x8 x9 x10 x11
    = logSoftmax (val_main_v146 (F := F) x0 x1 x2 x3 x4 x5 x6 x7 x8 x9 x10 x11) := rfl

end Shared

end Cert.Bridge

end
-- ==== Proof.RefNetwork.lean ====
/-
  The reference computes the network.

  On the extended reals each of the reference's four dot_generals is the textbook product of its operands; between two
  layers its broadcast bias and its maximum with a broadcast zero are, entry by entry, the bias added to the row and the
  maximum with zero; the head's broadcast bias is the bias added to every row.  With the shared host functions this makes
  the reference's result the network of its twelve arguments.
-/
import proofs.«136418_j1666447311245_1_alg».proof.Proof.RefChains
import proofs.«136418_j1666447311245_1_alg».proof.Proof.LibHostIdx

set_option maxRecDepth 16384

noncomputable section

namespace Cert.Bridge

open Cert.ReferenceIdeal Cert.ReferenceIdeal.Read Cert.KernelIdeal.Hand
open Idealize.ShloMosaic Idealize.ShloMosaic.PlainDot

variable (x0 : (⟨S50000x128, .f32⟩ : BufTy).Contents (Elt Ideal)) (x1 x2 : (⟨S640000, .i32⟩ : BufTy).Contents (Elt Ideal))
  (x3 : (⟨S50000, .i32⟩ : BufTy).Contents (Elt Ideal)) (x4 : (⟨S128x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal)) (x8 : (⟨S128x128, .f32⟩ : BufTy).Contents (Elt Ideal))
  (x9 : (⟨S128, .f32⟩ : BufTy).Contents (Elt Ideal)) (x10 : (⟨S128x10, .f32⟩ : BufTy).Contents (Elt Ideal))
  (x11 : (⟨S10, .f32⟩ : BufTy).Contents (Elt Ideal))

/-- The four products. -/
theorem lin1 : val_main_v26 (F := Ideal) x0 x4 = mm (M := 50000) (K := 128) (N := 128) x0 x4 :=
  dotGeneral_eq_mm (M := 50000) (K := 128) (N := 128) none .single x0 x4
theorem lin2 : val_main_v70 (F := Ideal) x0 x1 x2 x4 x5 x6
    = mm (M := 50000) (K := 128) (N := 128) (val_main_v43 (F := Ideal) x0 x1 x2 x4 x5) x6 :=
  dotGeneral_eq_mm (M := 50000) (K := 128) (N := 128) none .single _ x6
theorem lin3 : val_main_v114 (F := Ideal) x0 x1 x2 x4 x5 x6 x7 x8
    = mm (M := 50000) (K := 128) (N := 128) (val_main_v87 (F := Ideal) x0 x1 x2 x4 x5 x6 x7) x8 :=
  dotGeneral_eq_mm (M := 50000) (K := 128) (N := 128) none .single _ x8
theorem lin4 : val_main_v143 (F := Ideal) x0 x1 x2 x3 x4 x5 x6 x7 x8 x9 x10
    = mm (M := 64) (K := 128) (N := 10) (val_main_v142 (F := Ideal) x0 x1 x2 x3 x4 x5 x6 x7 x8 x9) x10 :=
  dotGeneral_eq_mm (M := 64) (K := 128) (N := 10) none .single _ x10

/-- Between the first and the second layer: the bias added to every row, then the maximum with zero. -/
theorem act1 : val_main_v43 (F := Ideal) x0 x1 x2 x4 x5 = biasRelu (val_main_v39 (F := Ideal) x0 x1 x2 x4) x5 := by
  funext i
  have hidx : idx_main_v40 (idx_main_v41 i) = ValueIdx.ix1 (⟨(i 1).val, (i 1).isLt⟩ : Fin 128) :=
    funext fun a => by match a with | ⟨0, _⟩ => rfl
  rw [val_main_v43_apply, val_main_v42_apply, val_main_v41_apply, val_main_v40_apply, val_main_call1_v0_apply,
    val_main_call1_cst_apply, hidx]
  rfl

/-- Between the second and the third layer, the same. -/
theorem act2 : val_main_v87 (F := Ideal) x0 x1 x2 x4 x5 x6 x7 = biasRelu (val_main_v83 (F := Ideal) x0 x1 x2 x4 x5 x6) x7 := by
  funext i
  have hidx : idx_main_v84 (idx_main_v85 i) = ValueIdx.ix1 (⟨(i 1).val, (i 1).isLt⟩ : Fin 128) :=
    funext fun a => by match a with | ⟨0, _⟩ => rfl
  rw [val_main_v87_apply, val_main_v86_apply, val_main_v85_apply, val_main_v84_apply, val_main_call3_v0_apply,
    val_main_call3_cst_apply, hidx]
  rfl

/-- The head: the product with the bias added to every row. -/
theorem logits : val_main_v146 (F := Ideal) x0 x1 x2 x3 x4 x5 x6 x7 x8 x9 x10 x11
    = addRow (mm (M := 64) (K := 128) (N := 10) (val_main_v142 (F := Ideal) x0 x1 x2 x3 x4 x5 x6 x7 x8 x9) x10) x11 := by
  funext i
  have hidx : idx_main_v144 (idx_main_v145 i) = ValueIdx.ix1 (⟨(i 1).val, (i 1).isLt⟩ : Fin 10) :=
    funext fun a => by match a with | ⟨0, _⟩ => rfl
  rw [val_main_v146_apply, val_main_v145_apply, val_main_v144_apply, hidx, lin4]
  rfl

/-- The reference's result is the network of its arguments. -/
theorem ref_network : val_main_v147 (F := Ideal) x0 x1 x2 x3 x4 x5 x6 x7 x8 x9 x10 x11
    = network x0 x1 x2 x3 x4 x5 x6 x7 x8 x9 x10 x11 := by
  rw [lsm, logits, pool, agg3, lin3, act2, agg2, lin2, act1, agg1, lin1]
  rfl

end Cert.Bridge

end
-- ==== Proof.lean ====
/-
  A three-layer graph convolution network with a mean pool and a linear head under log-softmax, computed two ways.

  The kernel's program runs its four dense products as kernel launches — x · W₁, max (a₁ + b₁) 0 · W₂ and
  max (a₂ + b₂) 0 · W₃ in blocks of 2000 rows, pooled · W_l + b_l at one grid point — among host operations that append
  the self loops, compute the edge weights once, aggregate over the edges after each of the first three launches, pool
  the graphs and take the log-softmax.  The reference does all of it on the host, recomputing the self loops and the
  edge weights in each layer and adding each layer's bias where the layer ends rather than where the next begins.

  On the extended reals the two are one function of the twelve arguments (`Cert.KernelIdeal.Hand.network`):
    · a product on the matrix unit into a zero accumulator and the host's dot_general are both the textbook product;
    · entry (r, c) of a product depends on row r of the left operand only, so a product computed block of rows by block
      of rows is the product of the whole arrays, and the bias and the rectifier act entry by entry;
    · a bias handed over as a one-row array is the bias vector recast;
    · the host chains the two programs share (self loops, degree, edge weights, aggregation, pool, log-softmax) are the
      same operations on the same values, and are never opened.
  No law used needs a finite value: the precondition is not consulted.

  The frames of the two kernel programs are the generated ones; the reference's frame is its run with the result dropped;
  the idealization rewrote nothing, so `preserves` is trivial.
-/
import proofs.«136418_j1666447311245_1_alg».proof.Defs
import proofs.«136418_j1666447311245_1_alg».proof.Proof.Gen.Kernel
import proofs.«136418_j1666447311245_1_alg».proof.Proof.Gen.Kernel.Frame
import proofs.«136418_j1666447311245_1_alg».proof.Proof.Gen.KernelIdeal
import proofs.«136418_j1666447311245_1_alg».proof.Proof.Gen.KernelIdeal.Frame
import proofs.«136418_j1666447311245_1_alg».proof.Proof.Gen.ReferenceIdeal
import proofs.«136418_j1666447311245_1_alg».proof.Proof.Gen.Pre_finite_inputs
import proofs.«136418_j1666447311245_1_alg».proof.Proof.KernelRun
import proofs.«136418_j1666447311245_1_alg».proof.Proof.KernelValue
import proofs.«136418_j1666447311245_1_alg».proof.Proof.RefNetwork
import Idealize.ShloMosaic.Adequacy
import Idealize.ShloMosaic.Init

set_option maxRecDepth 16384

noncomputable section

namespace Cert.Proof

open Idealize.ShloMosaic Idealize.SL.Sem

/-- The word-level kernel's program runs and leaves its arguments as launched. -/
theorem frame_kernel : Cert.frame_Kernel := fun m ρ _ => Cert.Kernel.Gen.frame m ρ

/-- So does the idealized kernel's program. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the network of the arguments in their result
    buffer, and the arguments unchanged. -/
theorem algebraic : Cert.algebraic_KernelIdeal_ReferenceIdeal := by
  intro m ρ m' ρ' _ hagree
  refine ⟨fun c => Cert.KernelIdeal.Hand.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Hand.result_is_network m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v147_eq, Cert.Bridge.ref_network, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
